-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "fold_c_134217728_13421773" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x256 : Shape := ⟨3, ![64, 128, 256]⟩
abbrev S64 : Shape := ⟨1, ![64]⟩
abbrev S_ : Shape := ⟨0, ![]⟩

class Facts : Prop where
  bcast_S_S64x128x256 : S_.BroadcastsInDim S64x128x256 (![] : Fin 0 → Fin S64x128x256.rank)
  reducesTo_S64x128x256_S_d0_1_2 : S64x128x256.ReducesTo [0, 1, 2] S_
  h_S_ : 0 < S_.numel

variable [Facts]

def fn {F : FTy → Type} [FloatOps F] (main_arg0 : FVec F S64x128x256 .f32) (main_arg1 : IVec S64 32) : IVec S_ 1 :=
  let main_v0 : FVec F S64x128x256 .f32 := Host.absf main_arg0
  let main_cst : FVec F S_ .f32 := constant S_ .f32 0x7F800000#32
  let main_v1 : FVec F S64x128x256 .f32 := broadcastInDim S64x128x256 ![] bcast_S_S64x128x256 main_cst
  let main_v2 : IVec S64x128x256 1 := cmpf .olt main_v0 main_v1
  let main_c : IVec S_ 1 := constantI S_ 1 1#1
  let main_v3 : IVec S_ 1 := (fun x v => Host.reduce IntOp.andi x v reducesTo_S64x128x256_S_d0_1_2 h_S_) main_v2 main_c
  main_v3
-- ==== Kernel.lean ====
abbrev S64x128x256 : Shape := ⟨3, ![64, 128, 256]⟩
abbrev S64 : Shape := ⟨1, ![64]⟩
abbrev S128x64x256 : Shape := ⟨3, ![128, 64, 256]⟩
abbrev S8192x256 : Shape := ⟨2, ![8192, 256]⟩
abbrev S1x64 : Shape := ⟨2, ![1, 64]⟩
abbrev S128x64 : Shape := ⟨2, ![128, 64]⟩
abbrev S8192 : Shape := ⟨1, ![8192]⟩
abbrev S8192x1 : Shape := ⟨2, ![8192, 1]⟩
abbrev S1x8192 : Shape := ⟨2, ![1, 8192]⟩
abbrev S64x256 : Shape := ⟨2, ![64, 256]⟩
abbrev S64x1 : Shape := ⟨2, ![64, 1]⟩
abbrev S64x8192 : Shape := ⟨2, ![64, 8192]⟩
abbrev S_ : Shape := ⟨0, ![]⟩

abbrev nBuf : Space → Nat
  | .hbm => 22
  | .vmem => 10
  | .smem => 0
  | _ => 0

abbrev bufTy : (tb : Table) → Fin (tcTables nBuf tb) → BufTy
  | .hbm, ⟨0, _⟩ => ⟨S64x128x256, .f32⟩
  | .hbm, ⟨1, _⟩ => ⟨S64, .i32⟩
  | .hbm, ⟨2, _⟩ => ⟨S128x64x256, .f32⟩
  | .hbm, ⟨3, _⟩ => ⟨S8192x256, .f32⟩
  | .hbm, ⟨4, _⟩ => ⟨S8192x256, .bf16⟩
  | .hbm, ⟨5, _⟩ => ⟨S1x64, .i32⟩
  | .hbm, ⟨6, _⟩ => ⟨S128x64, .i32⟩
  | .hbm, ⟨7, _⟩ => ⟨S8192, .i32⟩
  | .hbm, ⟨8, _⟩ => ⟨S8192x1, .i32⟩
  | .hbm, ⟨9, _⟩ => ⟨S1x8192, .i32⟩
  | .hbm, ⟨10, _⟩ => ⟨S8192x1, .f32⟩
  | .hbm, ⟨11, _⟩ => ⟨S8192x1, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S64x256, .bf16⟩
  | .local _ .vmem, ⟨1, _⟩ => ⟨S64x256, .bf16⟩
  | .local _ .vmem, ⟨2, _⟩ => ⟨S8192x256, .bf16⟩
  | .local _ .vmem, ⟨3, _⟩ => ⟨S64x1, .i32⟩
  | .local _ .vmem, ⟨4, _⟩ => ⟨S64x1, .i32⟩
  | .local _ .vmem, ⟨5, _⟩ => ⟨S1x8192, .i32⟩
  | .local _ .vmem, ⟨6, _⟩ => ⟨S64x1, .f32⟩
  | .local _ .vmem, ⟨7, _⟩ => ⟨S64x1, .f32⟩
  | .local _ .vmem, ⟨8, _⟩ => ⟨S64x1, .f32⟩
  | .local _ .vmem, ⟨9, _⟩ => ⟨S64x1, .f32⟩
  | _, _ => ⟨S64x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x128x256_S128x64x256_1_0_2 : S64x128x256.Transposes [1, 0, 2] S128x64x256
  shapeCasts_S128x64x256_S8192x256 : S128x64x256.ShapeCasts S8192x256
  bitsLt_bf16_f32 : FTy.bits .bf16 < FTy.bits .f32
  shapeCasts_S64_S1x64 : S64.ShapeCasts S1x64
  bcast_S1x64_S128x64_0_1 : S1x64.BroadcastsInDim S128x64 (![0, 1] : Fin 2 → Fin S128x64.rank)
  shapeCasts_S128x64_S8192 : S128x64.ShapeCasts S8192
  shapeCasts_S8192_S8192x1 : S8192.ShapeCasts S8192x1
  shapeCasts_S8192_S1x8192 : S8192.ShapeCasts S1x8192
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  reduces_S64x8192_S64 : S64x8192.Reduces [1] S64
  shapeCasts_S64_S64x1 : S64.ShapeCasts S64x1
  broadcasts_S64x1_S64x8192 : S64x1.Broadcasts S64x8192
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S64x8192 : S1x8192.Broadcasts S64x8192
  natLt_1_32 : 1 < 32
  iota_S64x1_d0_w32 : S64x1.Iotas .tc 32 [0]
  iota_S1x8192_d1_w32 : S1x8192.Iotas .tc 32 [1]
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S64x256_S8192x256_S64x8192_1_1_0_0_n_n_wf : DotDims.WF S64x256 S8192x256 S64x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S8192x256.size a
  hwx0_0 : ∀ i : grid0.Coords, EltTy.bits .bf16 = 32 ∨ (Rect.block (s := S8192x256) S64x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S8192x1.size a
  hwx0_2 : ∀ i : grid0.Coords, EltTy.bits .i32 = 32 ∨ (Rect.block (s := S8192x1) S64x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S8192x1.size a
  hwx0_4 : ∀ i : grid0.Coords, EltTy.bits .f32 = 32 ∨ (Rect.block (s := S8192x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S8192x1.size a
  hwx0_5 : ∀ i : grid0.Coords, EltTy.bits .f32 = 32 ∨ (Rect.block (s := S8192x1) S64x1.size (cc0_transform_5 i) (hinb0_5 i)).WholeWords (EltTy.packing .f32)

variable [Facts₀]

def dot_S64x256_S8192x256_S64x8192_1_1_0_0_n_n : DotDims S64x256 S8192x256 S64x8192 where
  lhsContracting := [1]
  rhsContracting := [1]
  lhsNonContracting := [0]
  rhsNonContracting := [0]
  lhsBatch := []
  rhsBatch := []
  wf := dot_S64x256_S8192x256_S64x8192_1_1_0_0_n_n_wf

abbrev win0_0 : Pipeline.Window sig grid0 :=
  Pipeline.Window.ofSpec (Memref.whole main_v2) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x128x256 : Shape := ⟨3, ![64, 128, 256]⟩
abbrev S64 : Shape := ⟨1, ![64]⟩
abbrev S128x64x256 : Shape := ⟨3, ![128, 64, 256]⟩
abbrev S8192x256 : Shape := ⟨2, ![8192, 256]⟩
abbrev S1x64 : Shape := ⟨2, ![1, 64]⟩
abbrev S128x64 : Shape := ⟨2, ![128, 64]⟩
abbrev S8192 : Shape := ⟨1, ![8192]⟩
abbrev S256x8192 : Shape := ⟨2, ![256, 8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 62
  | .vmem => 0
  | .smem => 0
  | _ => 0

abbrev bufTy : (tb : Table) → Fin (tcTables nBuf tb) → BufTy
  | .hbm, ⟨0, _⟩ => ⟨S64x128x256, .f32⟩
  | .hbm, ⟨1, _⟩ => ⟨S64, .i32⟩
  | .hbm, ⟨2, _⟩ => ⟨S128x64x256, .f32⟩
  | .hbm, ⟨3, _⟩ => ⟨S8192x256, .f32⟩
  | .hbm, ⟨4, _⟩ => ⟨S1x64, .i32⟩
  | .hbm, ⟨5, _⟩ => ⟨S128x64, .i32⟩
  | .hbm, ⟨6, _⟩ => ⟨S8192, .i32⟩
  | .hbm, ⟨7, _⟩ => ⟨S256x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S64x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩

abbrev nD : Nat := 1
abbrev τ : Topo := Topo.v7x

variable {F : FTy → Type} [FloatOps F]

class Facts₀ : Prop where
  transposes_S64x128x256_S128x64x256_1_0_2 : S64x128x256.Transposes [1, 0, 2] S128x64x256
  shapeCasts_S128x64x256_S8192x256 : S128x64x256.ShapeCasts S8192x256
  shapeCasts_S64_S1x64 : S64.ShapeCasts S1x64
  bcast_S1x64_S128x64_0_1 : S1x64.BroadcastsInDim S128x64 (![0, 1] : Fin 2 → Fin S128x64.rank)
  shapeCasts_S128x64_S8192 : S128x64.ShapeCasts S8192
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.BitsBody.lean ====
/-
  The body of the pallas_call, run once per grid point.

  The call has six windows over five arrays: the 64-row query block and the whole key matrix are two windows of
  ONE array (the flattened features), then the query labels' block, the whole row of key labels, and the two
  result columns (the sum of the positive pairs' log-probabilities, and the count of positive pairs), each in
  blocks of 64 rows. At every point the body loads its four input blocks whole, computes, and stores each result
  block whole; so what a result block holds after the body is a pure function of the four input blocks at the
  point, and every input buffer holds its block, fetched at that point or kept from the first.
-/
import proofs.«174806_j49632642073101_1_alg».proof.Proof.Gen.Kernel.Launch
import proofs.«174806_j49632642073101_1_alg».proof.Proof.Gen.Kernel.Skeleton
import proofs.«174806_j49632642073101_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V₀ (c : Dev nD) : Valuation τ sig (Elt F) := fun b => m ((c : Dev nD), b)
/-- and when the region is entered: the host operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in each result block -/

abbrev rQ : Rect S64x256 := Rect.unit (s := S64x256) ![0, 0] S64x256.size inb_S64x256_S64x256_0_0
abbrev rK : Rect S8192x256 := Rect.unit (s := S8192x256) ![0, 0] S8192x256.size inb_S8192x256_S8192x256_0_0
abbrev rC : Rect S64x1 := Rect.unit (s := S64x1) ![0, 0] S64x1.size inb_S64x1_S64x1_0_0
abbrev rL : Rect S1x8192 := Rect.unit (s := S1x8192) ![0, 0] S1x8192.size inb_S1x8192_S1x8192_0_0

/-- The block of summed log-probabilities after the body, from the four input blocks at grid coordinates `i`. -/
def outSum (i : grid0.Coords) (x0 : Vec F S64x256 .bf16) (x1 : Vec F S8192x256 .bf16) (x2 : Vec F S64x1 .i32) (x3 : Vec F S1x8192 .i32) : Vec F S64x1 .f32 :=
  View.canon [⟨rC, k0_pay1 (k0_pay3 (View.ld x0 rQ) (View.ld x1 rK)) (k0_pay5 i (View.ld x2 rC) (View.ld x3 rL))
    (k0_pay6 (View.ld x0 rQ) (View.ld x1 rK) (View.ld x2 rC) (View.ld x3 rL))⟩]

/-- The block of positive-pair counts after the body. -/
def outCnt (i : grid0.Coords) (x2 : Vec F S64x1 .i32) (x3 : Vec F S1x8192 .i32) : Vec F S64x1 .f32 :=
  View.canon [⟨rC, k0_pay2 (k0_pay5 i (View.ld x2 rC) (View.ld x3 rL))⟩]

/-- One whole store covers the block. -/
theorem coverC (p0 : Vec F S64x1 .f32) (y : S64x1.Idx) :
    ∃ pc ∈ ([⟨rC, p0⟩] : List (View.Piece (Elt F) S64x1 .f32)), y ∈ pc.1.set :=
  View.cover_of_tiled [⟨rC, p0⟩] S64x1.size (by rfl) y

/-! ## The body's triple -/

set_option maxHeartbeats 4000000 in
/-- The body on whole staging memrefs, the four inputs' at read contents `x0 … x3` and the two results' at anything, runs
    to the continuation holding the inputs' as they were and each result's at its block function of the inputs'. -/
theorem sound_kernel (c : Dev nD) (E : Set ℕ) (i : grid0.Coords)
    (arg1 : Memref sig .tc .vmem S64x256 .bf16) (harg1 : arg1.IsWhole) (arg2 : Memref sig .tc .vmem S8192x256 .bf16) (harg2 : arg2.IsWhole)
    (arg3 : Memref sig .tc .vmem S64x1 .i32) (harg3 : arg3.IsWhole) (arg4 : Memref sig .tc .vmem S1x8192 .i32) (harg4 : arg4.IsWhole)
    (arg5 : Memref sig .tc .vmem S64x1 .f32) (harg5 : arg5.IsWhole) (arg6 : Memref sig .tc .vmem S64x1 .f32) (harg6 : arg6.IsWhole)
    (x0 : Vec F S64x256 .bf16) (x1 : Vec F S8192x256 .bf16) (x2 : Vec F S64x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outSum i x0 x1 x2 x3)
            ∗ owns (c : Thread nD τ) arg6 fullShare (outCnt i x2 x3)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverC _)
  · iexists _; isplitr
    swap; · iexact H5
    ipureintro
    exact View.read_writes_eq_canon _ _ _ (coverC _)

end Cert.Kernel.Body

end
-- ==== Proof.BitsData.lean ====
/-
  The proof data of the pallas_call's pipeline and its body obligation.

  After the body at point `t` every input's staging buffer still holds its block, and each result's buffer holds
  its block function of the four input blocks there. The features' array is read by two windows (the 64-row query
  block and the whole key matrix): each holds it at one half of the full share; the other inputs are held at the
  full share.
-/
import proofs.«174806_j49632642073101_1_alg».proof.Proof.BitsBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share each input window holds its array at: the two windows on the features' array one half each. -/
def qOf : Fin cfg0.W → PosShare TreeShare
  | ⟨0, _⟩ => fullShare.left
  | ⟨1, _⟩ => fullShare.right
  | _ => fullShare

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outSum (grid0.coords t) (iblk m c 0 t) (iblk m c 1 t) (iblk m c 2 t) (iblk m c 3 t)
    | ⟨5, _⟩ => outCnt (grid0.coords t) (iblk m c 2 t) (iblk m c 3 t)
  Φ _ := Pipeline.scopedRest (Ix := Unit) (Name := ℕ) (U := UR sig nD τ) (Lvl := ℕ) (Val := Elt F) spec0 c
  q := qOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = outSum (grid0.coords t) (iblk m c 0 t) (iblk m c 1 t) (iblk m c 2 t) (iblk m c 3 t) := by dsimp only [dats]
theorem after0_5 (c : Dev nD) (t : Fin cfg0.N) : (dats m 0 c).after 5 t
    = outCnt (grid0.coords t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.BitsRun.lean ====
/-
  The run of the kernel's @main, read at the word level or at any other instance: eight host operations (the view-major flattening of the features, their
  change of format, the tiling of the labels and its two reshapes), the pallas_call, then ten host operations (the
  two result columns flattened, their quotient scaled, summed and divided by the row count).

  @main is run as three segments: the host lines before the region over all the core's unscoped buffers, the
  region, the host lines after it over the same buffers. At the region's entry the features' array, held whole,
  is split into the two half shares its two windows hold it at; at its exit the halves are put together again.
-/
import proofs.«174806_j49632642073101_1_alg».proof.Proof.BitsData
import Idealize.ShloMosaic.Lib.Pipeline.Regions
import Idealize.ShloMosaic.Lib.Pipeline.Frame

set_option maxRecDepth 16384

noncomputable section

namespace Cert.Kernel.Body

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the region -/

/-- Core `c`'s buffers when the region is entered, as a valuation. -/
abbrev Vv (c : Dev nD) : Valuation τ sig (Elt F) := StableHlo.after hostOps0 (V₀ m c)

/-- An array's contents after the region, as the pipeline library computes them. -/
def finalA (c : Dev nD) (w : Fin cfg0.W) : Buf (Elt F) ((cfg0.win w).arr.view.loc (c : Thread nD τ)) := (dats m 0 c).arrAt w cfg0.N

/-- Core `c`'s buffers when the region is left: the two result arrays at their final contents, the rest as entered. -/
def W1 (c : Dev nD) : Valuation τ sig (Elt F) :=
  Function.update (Function.update (Vv m c) (Proc.devRef .tc main_v8_0) (finalA m c 4)) (Proc.devRef .tc main_v8_1) (finalA m c 5)

/-- The input arrays leave the region as they entered it. -/
theorem finalA_in (c : Dev nD) (w : Fin cfg0.W) (hw : (cfg0.win w).isOut = false) : finalA m c w = V m c (Pipeline.arrRef spec0 w) :=
  ((dats m 0 c).arrAt_in w hw _).trans (A_eq m c w)

/-! ## The windows' arrays, one by one -/

theorem arrays_chain (c : Dev nD) (G : (w : Fin cfg0.W) → Buf (Elt F) ((cfg0.win w).arr.view.loc (c : Thread nD τ))) :
    ((dats m 0 c).arrays G : sProp 𝕄)
      = iprop((((c : Thread nD τ).loc main_v2) ↦{fullShare.left} G 0) ∗ (((c : Thread nD τ).loc main_v2) ↦{fullShare.right} G 1)
          ∗ (((c : Thread nD τ).loc main_v6) ↦{fullShare} G 2) ∗ (((c : Thread nD τ).loc main_v7) ↦{fullShare} G 3)
          ∗ (((c : Thread nD τ).loc main_v8_0) ↦{fullShare} G 4) ∗ (((c : Thread nD τ).loc main_v8_1) ↦{fullShare} G 5)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

theorem arrBufs_chain (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v2) ↦{fullShare} X main_v2) ∗ (((c : Thread nD τ).loc main_v6) ↦{fullShare} X main_v6)
          ∗ (((c : Thread nD τ).loc main_v7) ↦{fullShare} X main_v7) ∗ (((c : Thread nD τ).loc main_v8_0) ↦{fullShare} X main_v8_0)
          ∗ (((c : Thread nD τ).loc main_v8_1) ↦{fullShare} X main_v8_1)) := by
  unfold Pipeline.arrBufs
  exact bigSep_eq_bigSepL_of_eq [main_v2, main_v6, main_v7, main_v8_0, main_v8_1] (by decide) (by decide) _

/-! ## The region's entry and exit -/

/-- The core's unscoped buffers, as device references: the set the host lines run within. -/
abbrev uc : Finset (DevRef τ sig) := Pipeline.ucRefs τ sig

/-- ENTRY: the unscoped buffers as the host lines left them are the windows' arrays at their entry contents — the
    features' array split into the two halves its two windows hold — and the buffers that bypass the region. -/
theorem entry_split (c : Dev nD) :
    (StableHlo.held (c : Thread nD τ) uc (Vv m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [← Pipeline.unscopedBufs_held c (Vv m c)]
  rw [Pipeline.unscopedBufs_split₀ cfgs 0 winFacts₀0.arr_unscoped c (V m c)]
  rw [arrBufs_chain, arrays_chain]
  iintro ⟨⟨H2, H6, H7, H80, H81⟩, Hr⟩
  ihave H2' := (pointsTo_share (PosShare.mem_left_op_right fullShare)).1 $$ H2
  icases H2' with ⟨H2l, H2r⟩
  isplitr [Hr]
  · isplitl [H2l]; · iexact H2l
    isplitl [H2r]; · iexact H2r
    isplitl [H6]; · iexact H6
    isplitl [H7]; · iexact H7
    isplitl [H80]; · iexact H80
    iexact H81
  · iexact Hr

/-- The exit valuation at the two result arrays, and off them. -/
theorem W1_sum (c : Dev nD) : W1 m c (Proc.devRef .tc main_v8_0) = finalA m c 4 := by
  unfold W1; rw [Function.update_of_ne (by decide), Function.update_self]
theorem W1_cnt (c : Dev nD) : W1 m c (Proc.devRef .tc main_v8_1) = finalA m c 5 := by
  unfold W1; rw [Function.update_self]
theorem W1_other (c : Dev nD) (b : Ref sig .tc) (h0 : b ≠ main_v8_0) (h1 : b ≠ main_v8_1) : W1 m c b = V m c b := by
  unfold W1
  rw [Function.update_of_ne (StableHlo.devRef_ne_of_ne h1), Function.update_of_ne (StableHlo.devRef_ne_of_ne h0)]

/-- The buffers that bypass the region are the same at the exit valuation. -/
theorem rest_congr (c : Dev nD) :
    (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (fun b => W1 m c b) := by
  unfold Pipeline.unscopedRest
  refine bigSep_congr fun b hb => ?_
  have hb' := (Finset.mem_sdiff.mp hb).2
  have h0 : b ≠ main_v8_0 := fun h => hb' (h ▸ Finset.mem_image.mpr ⟨4, Finset.mem_univ _, rfl⟩)
  have h1 : b ≠ main_v8_1 := fun h => hb' (h ▸ Finset.mem_image.mpr ⟨5, Finset.mem_univ _, rfl⟩)
  beta_reduce
  rw [W1_other m c b h0 h1]

/-- EXIT: the windows' arrays at their final contents — the two halves of the features' array put together — and the
    buffers that bypassed the region are the unscoped buffers at the exit valuation. -/
theorem exit_merge (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) uc (W1 m c) : sProp 𝕄) := by
  rw [← Pipeline.unscopedBufs_held c (W1 m c)]
  rw [Pipeline.unscopedBufs_split₀ cfgs 0 winFacts₀0.arr_unscoped c (fun b => W1 m c b)]
  rw [arrBufs_chain, arrays_chain, ← rest_congr]
  have e0 : (dats m 0 c).arrAt 0 cfg0.N = V m c main_v2 := finalA_in m c 0 rfl
  have e1 : (dats m 0 c).arrAt 1 cfg0.N = V m c main_v2 := finalA_in m c 1 rfl
  have e2 : (dats m 0 c).arrAt 2 cfg0.N = V m c main_v6 := finalA_in m c 2 rfl
  have e3 : (dats m 0 c).arrAt 3 cfg0.N = V m c main_v7 := finalA_in m c 3 rfl
  have w2 : W1 m c (Proc.devRef .tc main_v2) = V m c main_v2 := W1_other m c main_v2 (by decide) (by decide)
  have w6 : W1 m c (Proc.devRef .tc main_v6) = V m c main_v6 := W1_other m c main_v6 (by decide) (by decide)
  have w7 : W1 m c (Proc.devRef .tc main_v7) = V m c main_v7 := W1_other m c main_v7 (by decide) (by decide)
  have w80 := W1_sum m c
  have w81 := W1_cnt m c
  iintro ⟨⟨H2l, H2r, H6, H7, H80, H81⟩, Hr⟩
  isplitr [Hr]
  · isplitl [H2l H2r]
    · rw [w2]
      iapply (pointsTo_share (PosShare.mem_left_op_right fullShare)).2
      isplitl [H2l]
      · rw [← e0]; iexact H2l
      · rw [← e1]; iexact H2r
    isplitl [H6]; · rw [w6, ← e2]; iexact H6
    isplitl [H7]; · rw [w7, ← e3]; iexact H7
    isplitl [H80]; · rw [w80]; iexact H80
    rw [w81]; iexact H81
  · iexact Hr

/-! ## The segments and the run -/

/-- The proof's resource algebra: one copy of the rounds library's, the pipeline's. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through the host lines: that the core owes nothing. -/
abbrev R (c : Dev nD) : sProp 𝕄 := iprop(∃ W, owes (c : Thread nD τ) (0 : CellTallies nD τ sig Unit) W)

/-- Core `c`'s buffers at the end: the host lines after the region have run. -/
abbrev W2 (c : Dev nD) : Valuation τ sig (Elt F) := StableHlo.after hostOps1 (W1 m c)

/-- The host lines before the region, over the unscoped buffers. -/
def seg0 : Pipeline.HostSeg (Name := ℕ) (U := UR sig nD τ) (pcfgs (F := F)) defs₀ Variants.none L lv :=
  Pipeline.HostSeg.ofOps _ _ _ _ _ uc hostOps0 (fun op h => Pipeline.sub_ucRefs op ((List.forall_iff_forall_mem.mp hostOps0_sub) op h))
    (by intro _ h; (repeat (cases h with | head => rfl | tail _ h => ?_)); exact nomatch h) (V₀ m) R

/-- The host lines after the region, over the same buffers, from the exit valuation. -/
def seg1 : Pipeline.HostSeg (Name := ℕ) (U := UR sig nD τ) (pcfgs (F := F)) defs₀ Variants.none L lv :=
  Pipeline.HostSeg.ofOps _ _ _ _ _ uc hostOps1 (fun op h => Pipeline.sub_ucRefs op ((List.forall_iff_forall_mem.mp hostOps1_sub) op h))
    (by intro _ h; (repeat (cases h with | head => rfl | tail _ h => ?_)); exact nomatch h) (W1 m) R

set_option backward.isDefEq.respectTransparency.types false in
/-- The region: the windows' layout, no semaphore of the kernel's own, the body obligation; entered from what the first
    host lines left, left at the exit valuation. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) uc (Vv m c) ∗ R c)
  post c := iprop(StableHlo.held (c : Thread nD τ) uc (W1 m c) ∗ R c)
  X c := iprop(emp)
  Y c := iprop(emp)
  Z c := Pipeline.unscopedRest (Ix := Unit) (Name := ℕ) (U := UR sig nD τ) (Lvl := ℕ) spec0 c (V m c)
  hentry c := by
    iintro ⟨⟨Hub, HO⟩, -, -⟩
    ihave H := (entry_split m c) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, HZ⟩
    imodintro
    isplitr [HO]
    · iapply (exit_merge m c)
      isplitl [Ha] <;> iassumption
    · unfold Pipeline.Dat.owesAt Pipeline.owesWithin
      icases HO with ⟨%W, -, HO⟩; iexists W; iexact HO

/-- @main as the list of the three. -/
abbrev segs : List (Pipeline.Seg (pcfgs (F := F)) adm (dats m) () defs₀ Variants.none L lv) :=
  [.host (seg0 m), .region (reg0 m), .host (seg1 m)]

/-- The launch element: the pipeline library's at the staging cells and the pipeline's transfers. -/
def u₀ : UR sig nD τ := initOf (Pipeline.cells cfgs cellOf_inj) (Pipeline.launchToks cfgs cellOf_inj)

set_option backward.isDefEq.respectTransparency.types false in
/-- At the compiled mesh, from any memory with zero counters: every weakly fair execution of @main on the TensorCores
    terminates, and in every final state every unscoped buffer holds what the host lines after the region computed
    from the exit valuation. -/
theorem run_main : θ_run defs (onTc (τ := τ) (main (F := F))) ⟨m, fun _ => 0, ρ⟩
    (fun r => ∀ c : Dev nD, ∀ b ∈ (uc : Finset (DevRef τ sig)), r.2.mem ((c : Thread nD τ).1, b) = W2 m c b) :=
  Pipeline.θ_run_regions_kit (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) uc (V₀ m c) ∗ R c))
    (Tₙ := fun c => StableHlo.held (c : Thread nD τ) uc (W2 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) uc (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (uc : Finset (DevRef τ sig)), s.mem ((c : Thread nD τ).1, b) = W2 m c b)
    (hfin := fun c s' => by
      unfold StableHlo.held
      iintro ⟨Hh, HSI⟩
      ihave Hr := (pointsTo_read_all (uc : Finset (DevRef τ sig)) (fun b => ((c : Thread nD τ).1, b)) (W2 m c) s') $$ [Hh HSI]
      · isplitl [Hh] <;> iassumption
      icases Hr with ⟨%h, HSI⟩
      imodintro
      isplitr; · ipureintro; exact h
      iexact HSI)
    (hQ := fun _ h => h)

/-! ## The argument arrays end as launched -/

/-- No host line before the region writes an argument array; -/
theorem not_written0 (b : Ref sig .tc) (hb : b = main_arg0 ∨ b = main_arg1) :
    ∀ op ∈ (hostOps0 (F := F)), Proc.devRef .tc b ∉ op.writes := by
  intro op hop
  simp only [List.mem_cons, List.mem_nil_iff, or_false] at hop
  rcases hb with rfl | rfl <;>
  rcases hop with rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)

/-- nor does one after it. -/
theorem not_written1 (b : Ref sig .tc) (hb : b = main_arg0 ∨ b = main_arg1) :
    ∀ op ∈ (hostOps1 (F := F)), Proc.devRef .tc b ∉ op.writes := by
  intro op hop
  simp only [List.mem_cons, List.mem_nil_iff, or_false] at hop
  rcases hb with rfl | rfl <;>
  rcases hop with rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)

/-- So an argument array holds at the end what it held at launch. -/
theorem W2_arg (c : Dev nD) (b : Ref sig .tc) (hb : b = main_arg0 ∨ b = main_arg1) :
    W2 m c (Proc.devRef .tc b) = m ((c : Thread nD τ).loc b) := by
  have h0 : b ≠ main_v8_0 := by rcases hb with rfl | rfl <;> decide
  have h1 : b ≠ main_v8_1 := by rcases hb with rfl | rfl <;> decide
  rw [show W2 m c (Proc.devRef .tc b) = W1 m c (Proc.devRef .tc b) from
      StableHlo.after_of_forall_not_mem (b := Proc.devRef .tc b) hostOps1 (W1 m c) (not_written1 b hb),
    W1_other m c b h0 h1]
  exact StableHlo.after_of_forall_not_mem (b := Proc.devRef .tc b) hostOps0 (V₀ m c) (not_written0 b hb)

/-- THE FRAME: @main runs to the end, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_arg0) (by decide)).trans (W2_arg m c main_arg0 (.inl rfl)),
     (h c (Proc.devRef .tc main_arg1) (by decide)).trans (W2_arg m c main_arg1 (.inr rfl))⟩) (run_main m ρ)

end Cert.Kernel.Body

end
-- ==== Proof.IdealBody.lean ====
/-
  The body of the pallas_call, run once per grid point.

  The call has six windows over five arrays: the 64-row query block and the whole key matrix are two windows of
  ONE array (the flattened features), then the query labels' block, the whole row of key labels, and the two
  result columns (the sum of the positive pairs' log-probabilities, and the count of positive pairs), each in
  blocks of 64 rows. At every point the body loads its four input blocks whole, computes, and stores each result
  block whole; so what a result block holds after the body is a pure function of the four input blocks at the
  point, and every input buffer holds its block, fetched at that point or kept from the first.
-/
import proofs.«174806_j49632642073101_1_alg».proof.Proof.Gen.KernelIdeal.Launch
import proofs.«174806_j49632642073101_1_alg».proof.Proof.Gen.KernelIdeal.Skeleton
import proofs.«174806_j49632642073101_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V₀ (c : Dev nD) : Valuation τ sig (Elt F) := fun b => m ((c : Dev nD), b)
/-- and when the region is entered: the host operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in each result block -/

abbrev rQ : Rect S64x256 := Rect.unit (s := S64x256) ![0, 0] S64x256.size inb_S64x256_S64x256_0_0
abbrev rK : Rect S8192x256 := Rect.unit (s := S8192x256) ![0, 0] S8192x256.size inb_S8192x256_S8192x256_0_0
abbrev rC : Rect S64x1 := Rect.unit (s := S64x1) ![0, 0] S64x1.size inb_S64x1_S64x1_0_0
abbrev rL : Rect S1x8192 := Rect.unit (s := S1x8192) ![0, 0] S1x8192.size inb_S1x8192_S1x8192_0_0

/-- The block of summed log-probabilities after the body, from the four input blocks at grid coordinates `i`. -/
def outSum (i : grid0.Coords) (x0 : Vec F S64x256 .bf16) (x1 : Vec F S8192x256 .bf16) (x2 : Vec F S64x1 .i32) (x3 : Vec F S1x8192 .i32) : Vec F S64x1 .f32 :=
  View.canon [⟨rC, k0_pay1 (k0_pay3 (View.ld x0 rQ) (View.ld x1 rK)) (k0_pay5 i (View.ld x2 rC) (View.ld x3 rL))
    (k0_pay6 (View.ld x0 rQ) (View.ld x1 rK) (View.ld x2 rC) (View.ld x3 rL))⟩]

/-- The block of positive-pair counts after the body. -/
def outCnt (i : grid0.Coords) (x2 : Vec F S64x1 .i32) (x3 : Vec F S1x8192 .i32) : Vec F S64x1 .f32 :=
  View.canon [⟨rC, k0_pay2 (k0_pay5 i (View.ld x2 rC) (View.ld x3 rL))⟩]

/-- One whole store covers the block. -/
theorem coverC (p0 : Vec F S64x1 .f32) (y : S64x1.Idx) :
    ∃ pc ∈ ([⟨rC, p0⟩] : List (View.Piece (Elt F) S64x1 .f32)), y ∈ pc.1.set :=
  View.cover_of_tiled [⟨rC, p0⟩] S64x1.size (by rfl) y

/-! ## The body's triple -/

set_option maxHeartbeats 4000000 in
/-- The body on whole staging memrefs, the four inputs' at read contents `x0 … x3` and the two results' at anything, runs
    to the continuation holding the inputs' as they were and each result's at its block function of the inputs'. -/
theorem sound_kernel (c : Dev nD) (E : Set ℕ) (i : grid0.Coords)
    (arg1 : Memref sig .tc .vmem S64x256 .bf16) (harg1 : arg1.IsWhole) (arg2 : Memref sig .tc .vmem S8192x256 .bf16) (harg2 : arg2.IsWhole)
    (arg3 : Memref sig .tc .vmem S64x1 .i32) (harg3 : arg3.IsWhole) (arg4 : Memref sig .tc .vmem S1x8192 .i32) (harg4 : arg4.IsWhole)
    (arg5 : Memref sig .tc .vmem S64x1 .f32) (harg5 : arg5.IsWhole) (arg6 : Memref sig .tc .vmem S64x1 .f32) (harg6 : arg6.IsWhole)
    (x0 : Vec F S64x256 .bf16) (x1 : Vec F S8192x256 .bf16) (x2 : Vec F S64x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outSum i x0 x1 x2 x3)
            ∗ owns (c : Thread nD τ) arg6 fullShare (outCnt i x2 x3)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverC _)
  · iexists _; isplitr
    swap; · iexact H5
    ipureintro
    exact View.read_writes_eq_canon _ _ _ (coverC _)

end Cert.KernelIdeal.Body

end
-- ==== Proof.IdealData.lean ====
/-
  The proof data of the pallas_call's pipeline and its body obligation.

  After the body at point `t` every input's staging buffer still holds its block, and each result's buffer holds
  its block function of the four input blocks there. The features' array is read by two windows (the 64-row query
  block and the whole key matrix): each holds it at one half of the full share; the other inputs are held at the
  full share.
-/
import proofs.«174806_j49632642073101_1_alg».proof.Proof.IdealBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The share each input window holds its array at: the two windows on the features' array one half each. -/
def qOf : Fin cfg0.W → PosShare TreeShare
  | ⟨0, _⟩ => fullShare.left
  | ⟨1, _⟩ => fullShare.right
  | _ => fullShare

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outSum (grid0.coords t) (iblk m c 0 t) (iblk m c 1 t) (iblk m c 2 t) (iblk m c 3 t)
    | ⟨5, _⟩ => outCnt (grid0.coords t) (iblk m c 2 t) (iblk m c 3 t)
  Φ _ := Pipeline.scopedRest (Ix := Unit) (Name := ℕ) (U := UR sig nD τ) (Lvl := ℕ) (Val := Elt F) spec0 c
  q := qOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = outSum (grid0.coords t) (iblk m c 0 t) (iblk m c 1 t) (iblk m c 2 t) (iblk m c 3 t) := by dsimp only [dats]
theorem after0_5 (c : Dev nD) (t : Fin cfg0.N) : (dats m 0 c).after 5 t
    = outCnt (grid0.coords t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.IdealRun.lean ====
/-
  The run of the idealized kernel's @main: eight host operations (the view-major flattening of the features, their
  change of format, the tiling of the labels and its two reshapes), the pallas_call, then ten host operations (the
  two result columns flattened, their quotient scaled, summed and divided by the row count).

  @main is run as three segments: the host lines before the region over all the core's unscoped buffers, the
  region, the host lines after it over the same buffers. At the region's entry the features' array, held whole,
  is split into the two half shares its two windows hold it at; at its exit the halves are put together again.
-/
import proofs.«174806_j49632642073101_1_alg».proof.Proof.IdealData
import Idealize.ShloMosaic.Lib.Pipeline.Regions
import Idealize.ShloMosaic.Lib.Pipeline.Frame

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents around the region -/

/-- Core `c`'s buffers when the region is entered, as a valuation. -/
abbrev Vv (c : Dev nD) : Valuation τ sig (Elt F) := StableHlo.after hostOps0 (V₀ m c)

/-- An array's contents after the region, as the pipeline library computes them. -/
def finalA (c : Dev nD) (w : Fin cfg0.W) : Buf (Elt F) ((cfg0.win w).arr.view.loc (c : Thread nD τ)) := (dats m 0 c).arrAt w cfg0.N

/-- Core `c`'s buffers when the region is left: the two result arrays at their final contents, the rest as entered. -/
def W1 (c : Dev nD) : Valuation τ sig (Elt F) :=
  Function.update (Function.update (Vv m c) (Proc.devRef .tc main_v8_0) (finalA m c 4)) (Proc.devRef .tc main_v8_1) (finalA m c 5)

/-- The input arrays leave the region as they entered it. -/
theorem finalA_in (c : Dev nD) (w : Fin cfg0.W) (hw : (cfg0.win w).isOut = false) : finalA m c w = V m c (Pipeline.arrRef spec0 w) :=
  ((dats m 0 c).arrAt_in w hw _).trans (A_eq m c w)

/-! ## The windows' arrays, one by one -/

theorem arrays_chain (c : Dev nD) (G : (w : Fin cfg0.W) → Buf (Elt F) ((cfg0.win w).arr.view.loc (c : Thread nD τ))) :
    ((dats m 0 c).arrays G : sProp 𝕄)
      = iprop((((c : Thread nD τ).loc main_v2) ↦{fullShare.left} G 0) ∗ (((c : Thread nD τ).loc main_v2) ↦{fullShare.right} G 1)
          ∗ (((c : Thread nD τ).loc main_v6) ↦{fullShare} G 2) ∗ (((c : Thread nD τ).loc main_v7) ↦{fullShare} G 3)
          ∗ (((c : Thread nD τ).loc main_v8_0) ↦{fullShare} G 4) ∗ (((c : Thread nD τ).loc main_v8_1) ↦{fullShare} G 5)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

theorem arrBufs_chain (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v2) ↦{fullShare} X main_v2) ∗ (((c : Thread nD τ).loc main_v6) ↦{fullShare} X main_v6)
          ∗ (((c : Thread nD τ).loc main_v7) ↦{fullShare} X main_v7) ∗ (((c : Thread nD τ).loc main_v8_0) ↦{fullShare} X main_v8_0)
          ∗ (((c : Thread nD τ).loc main_v8_1) ↦{fullShare} X main_v8_1)) := by
  unfold Pipeline.arrBufs
  exact bigSep_eq_bigSepL_of_eq [main_v2, main_v6, main_v7, main_v8_0, main_v8_1] (by decide) (by decide) _

/-! ## The region's entry and exit -/

/-- The core's unscoped buffers, as device references: the set the host lines run within. -/
abbrev uc : Finset (DevRef τ sig) := Pipeline.ucRefs τ sig

/-- ENTRY: the unscoped buffers as the host lines left them are the windows' arrays at their entry contents — the
    features' array split into the two halves its two windows hold — and the buffers that bypass the region. -/
theorem entry_split (c : Dev nD) :
    (StableHlo.held (c : Thread nD τ) uc (Vv m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [← Pipeline.unscopedBufs_held c (Vv m c)]
  rw [Pipeline.unscopedBufs_split₀ cfgs 0 winFacts₀0.arr_unscoped c (V m c)]
  rw [arrBufs_chain, arrays_chain]
  iintro ⟨⟨H2, H6, H7, H80, H81⟩, Hr⟩
  ihave H2' := (pointsTo_share (PosShare.mem_left_op_right fullShare)).1 $$ H2
  icases H2' with ⟨H2l, H2r⟩
  isplitr [Hr]
  · isplitl [H2l]; · iexact H2l
    isplitl [H2r]; · iexact H2r
    isplitl [H6]; · iexact H6
    isplitl [H7]; · iexact H7
    isplitl [H80]; · iexact H80
    iexact H81
  · iexact Hr

/-- The exit valuation at the two result arrays, and off them. -/
theorem W1_sum (c : Dev nD) : W1 m c (Proc.devRef .tc main_v8_0) = finalA m c 4 := by
  unfold W1; rw [Function.update_of_ne (by decide), Function.update_self]
theorem W1_cnt (c : Dev nD) : W1 m c (Proc.devRef .tc main_v8_1) = finalA m c 5 := by
  unfold W1; rw [Function.update_self]
theorem W1_other (c : Dev nD) (b : Ref sig .tc) (h0 : b ≠ main_v8_0) (h1 : b ≠ main_v8_1) : W1 m c b = V m c b := by
  unfold W1
  rw [Function.update_of_ne (StableHlo.devRef_ne_of_ne h1), Function.update_of_ne (StableHlo.devRef_ne_of_ne h0)]

/-- The buffers that bypass the region are the same at the exit valuation. -/
theorem rest_congr (c : Dev nD) :
    (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (fun b => W1 m c b) := by
  unfold Pipeline.unscopedRest
  refine bigSep_congr fun b hb => ?_
  have hb' := (Finset.mem_sdiff.mp hb).2
  have h0 : b ≠ main_v8_0 := fun h => hb' (h ▸ Finset.mem_image.mpr ⟨4, Finset.mem_univ _, rfl⟩)
  have h1 : b ≠ main_v8_1 := fun h => hb' (h ▸ Finset.mem_image.mpr ⟨5, Finset.mem_univ _, rfl⟩)
  beta_reduce
  rw [W1_other m c b h0 h1]

/-- EXIT: the windows' arrays at their final contents — the two halves of the features' array put together — and the
    buffers that bypassed the region are the unscoped buffers at the exit valuation. -/
theorem exit_merge (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) uc (W1 m c) : sProp 𝕄) := by
  rw [← Pipeline.unscopedBufs_held c (W1 m c)]
  rw [Pipeline.unscopedBufs_split₀ cfgs 0 winFacts₀0.arr_unscoped c (fun b => W1 m c b)]
  rw [arrBufs_chain, arrays_chain, ← rest_congr]
  have e0 : (dats m 0 c).arrAt 0 cfg0.N = V m c main_v2 := finalA_in m c 0 rfl
  have e1 : (dats m 0 c).arrAt 1 cfg0.N = V m c main_v2 := finalA_in m c 1 rfl
  have e2 : (dats m 0 c).arrAt 2 cfg0.N = V m c main_v6 := finalA_in m c 2 rfl
  have e3 : (dats m 0 c).arrAt 3 cfg0.N = V m c main_v7 := finalA_in m c 3 rfl
  have w2 : W1 m c (Proc.devRef .tc main_v2) = V m c main_v2 := W1_other m c main_v2 (by decide) (by decide)
  have w6 : W1 m c (Proc.devRef .tc main_v6) = V m c main_v6 := W1_other m c main_v6 (by decide) (by decide)
  have w7 : W1 m c (Proc.devRef .tc main_v7) = V m c main_v7 := W1_other m c main_v7 (by decide) (by decide)
  have w80 := W1_sum m c
  have w81 := W1_cnt m c
  iintro ⟨⟨H2l, H2r, H6, H7, H80, H81⟩, Hr⟩
  isplitr [Hr]
  · isplitl [H2l H2r]
    · rw [w2]
      iapply (pointsTo_share (PosShare.mem_left_op_right fullShare)).2
      isplitl [H2l]
      · rw [← e0]; iexact H2l
      · rw [← e1]; iexact H2r
    isplitl [H6]; · rw [w6, ← e2]; iexact H6
    isplitl [H7]; · rw [w7, ← e3]; iexact H7
    isplitl [H80]; · rw [w80]; iexact H80
    rw [w81]; iexact H81
  · iexact Hr

/-! ## The segments and the run -/

/-- The proof's resource algebra: one copy of the rounds library's, the pipeline's. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through the host lines: that the core owes nothing. -/
abbrev R (c : Dev nD) : sProp 𝕄 := iprop(∃ W, owes (c : Thread nD τ) (0 : CellTallies nD τ sig Unit) W)

/-- Core `c`'s buffers at the end: the host lines after the region have run. -/
abbrev W2 (c : Dev nD) : Valuation τ sig (Elt F) := StableHlo.after hostOps1 (W1 m c)

/-- The host lines before the region, over the unscoped buffers. -/
def seg0 : Pipeline.HostSeg (Name := ℕ) (U := UR sig nD τ) (pcfgs (F := F)) defs₀ Variants.none L lv :=
  Pipeline.HostSeg.ofOps _ _ _ _ _ uc hostOps0 (fun op h => Pipeline.sub_ucRefs op ((List.forall_iff_forall_mem.mp hostOps0_sub) op h))
    (by intro _ h; (repeat (cases h with | head => rfl | tail _ h => ?_)); exact nomatch h) (V₀ m) R

/-- The host lines after the region, over the same buffers, from the exit valuation. -/
def seg1 : Pipeline.HostSeg (Name := ℕ) (U := UR sig nD τ) (pcfgs (F := F)) defs₀ Variants.none L lv :=
  Pipeline.HostSeg.ofOps _ _ _ _ _ uc hostOps1 (fun op h => Pipeline.sub_ucRefs op ((List.forall_iff_forall_mem.mp hostOps1_sub) op h))
    (by intro _ h; (repeat (cases h with | head => rfl | tail _ h => ?_)); exact nomatch h) (W1 m) R

set_option backward.isDefEq.respectTransparency.types false in
/-- The region: the windows' layout, no semaphore of the kernel's own, the body obligation; entered from what the first
    host lines left, left at the exit valuation. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) uc (Vv m c) ∗ R c)
  post c := iprop(StableHlo.held (c : Thread nD τ) uc (W1 m c) ∗ R c)
  X c := iprop(emp)
  Y c := iprop(emp)
  Z c := Pipeline.unscopedRest (Ix := Unit) (Name := ℕ) (U := UR sig nD τ) (Lvl := ℕ) spec0 c (V m c)
  hentry c := by
    iintro ⟨⟨Hub, HO⟩, -, -⟩
    ihave H := (entry_split m c) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, HZ⟩
    imodintro
    isplitr [HO]
    · iapply (exit_merge m c)
      isplitl [Ha] <;> iassumption
    · unfold Pipeline.Dat.owesAt Pipeline.owesWithin
      icases HO with ⟨%W, -, HO⟩; iexists W; iexact HO

/-- @main as the list of the three. -/
abbrev segs : List (Pipeline.Seg (pcfgs (F := F)) adm (dats m) () defs₀ Variants.none L lv) :=
  [.host (seg0 m), .region (reg0 m), .host (seg1 m)]

/-- The launch element: the pipeline library's at the staging cells and the pipeline's transfers. -/
def u₀ : UR sig nD τ := initOf (Pipeline.cells cfgs cellOf_inj) (Pipeline.launchToks cfgs cellOf_inj)

set_option backward.isDefEq.respectTransparency.types false in
/-- At the compiled mesh, from any memory with zero counters: every weakly fair execution of @main on the TensorCores
    terminates, and in every final state every unscoped buffer holds what the host lines after the region computed
    from the exit valuation. -/
theorem run_main : θ_run defs (onTc (τ := τ) (main (F := F))) ⟨m, fun _ => 0, ρ⟩
    (fun r => ∀ c : Dev nD, ∀ b ∈ (uc : Finset (DevRef τ sig)), r.2.mem ((c : Thread nD τ).1, b) = W2 m c b) :=
  Pipeline.θ_run_regions_kit (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) uc (V₀ m c) ∗ R c))
    (Tₙ := fun c => StableHlo.held (c : Thread nD τ) uc (W2 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) uc (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (uc : Finset (DevRef τ sig)), s.mem ((c : Thread nD τ).1, b) = W2 m c b)
    (hfin := fun c s' => by
      unfold StableHlo.held
      iintro ⟨Hh, HSI⟩
      ihave Hr := (pointsTo_read_all (uc : Finset (DevRef τ sig)) (fun b => ((c : Thread nD τ).1, b)) (W2 m c) s') $$ [Hh HSI]
      · isplitl [Hh] <;> iassumption
      icases Hr with ⟨%h, HSI⟩
      imodintro
      isplitr; · ipureintro; exact h
      iexact HSI)
    (hQ := fun _ h => h)

/-! ## The argument arrays end as launched -/

/-- No host line before the region writes an argument array; -/
theorem not_written0 (b : Ref sig .tc) (hb : b = main_arg0 ∨ b = main_arg1) :
    ∀ op ∈ (hostOps0 (F := F)), Proc.devRef .tc b ∉ op.writes := by
  intro op hop
  simp only [List.mem_cons, List.mem_nil_iff, or_false] at hop
  rcases hb with rfl | rfl <;>
  rcases hop with rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)

/-- nor does one after it. -/
theorem not_written1 (b : Ref sig .tc) (hb : b = main_arg0 ∨ b = main_arg1) :
    ∀ op ∈ (hostOps1 (F := F)), Proc.devRef .tc b ∉ op.writes := by
  intro op hop
  simp only [List.mem_cons, List.mem_nil_iff, or_false] at hop
  rcases hb with rfl | rfl <;>
  rcases hop with rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)

/-- So an argument array holds at the end what it held at launch. -/
theorem W2_arg (c : Dev nD) (b : Ref sig .tc) (hb : b = main_arg0 ∨ b = main_arg1) :
    W2 m c (Proc.devRef .tc b) = m ((c : Thread nD τ).loc b) := by
  have h0 : b ≠ main_v8_0 := by rcases hb with rfl | rfl <;> decide
  have h1 : b ≠ main_v8_1 := by rcases hb with rfl | rfl <;> decide
  rw [show W2 m c (Proc.devRef .tc b) = W1 m c (Proc.devRef .tc b) from
      StableHlo.after_of_forall_not_mem (b := Proc.devRef .tc b) hostOps1 (W1 m c) (not_written1 b hb),
    W1_other m c b h0 h1]
  exact StableHlo.after_of_forall_not_mem (b := Proc.devRef .tc b) hostOps0 (V₀ m c) (not_written0 b hb)

/-- THE FRAME: @main runs to the end, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_arg0) (by decide)).trans (W2_arg m c main_arg0 (.inl rfl)),
     (h c (Proc.devRef .tc main_arg1) (by decide)).trans (W2_arg m c main_arg1 (.inr rfl))⟩) (run_main m ρ)

end Cert.KernelIdeal.Body

end
-- ==== Proof.Spec.lean ====
/-
  The mathematics both programs compute, on plain functions: a supervised contrastive loss's two
  per-row sums.  For features `cf : Fin 8192 → Fin 256 → EReal` and labels `lab : Fin 8192 → BitVec 32`:

    logit r j   = (∑ k, cf r k * cf j k) * c             (c the reciprocal of the temperature)
    rowMax r    = max over j of logit r j                  (a fold of `max` from -∞)
    shifted r j = logit r j - rowMax r
    expS r j    = exp (shifted r j)
    eqMask r j  = 1 if lab r = lab j, else 0
    selfMask r j= 1 if r = j, else 0
    negSum r    = ∑ j, expS r j * (1 - eqMask r j)
    posMask r j = eqMask r j * (1 - selfMask r j)
    logProb r j = shifted r j - log (expS r j + negSum r + ε)
    possum r    = ∑ j, posMask r j * logProb r j
    poscount r  = ∑ j, posMask r j

  The float literals 1, ε = 1e-10 and -∞ stay the 32-bit words they are written as (what a word denotes
  is never needed: both sides carry the same word).  Every sum and product keeps the order of operands
  written here.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The scale of the logits: the reciprocal of the temperature `13421773 / 134217728` (the binary32
    number nearest 0.1), as a rational. -/
def c : EReal := ((134217728 / 13421773 : ℝ) : EReal)

/-- The scaled inner product of row `r` with row `j`. -/
def logit (cf : Fin 8192 → Fin 256 → EReal) (r j : Fin 8192) : EReal :=
  (∑ k : Fin 256, cf r k * cf j k) * c

/-- The row's maximum: the fold of `max` over all columns, from -∞ (the word `0xFF800000`). -/
def rowMax (cf : Fin 8192 → Fin 256 → EReal) (r : Fin 8192) : EReal :=
  (Finset.univ : Finset (Fin 8192)).fold max (Ideal.ofBits .f32 0xFF800000#32) (fun j => logit cf r j)

def shifted (cf : Fin 8192 → Fin 256 → EReal) (r j : Fin 8192) : EReal :=
  logit cf r j - rowMax cf r

def expS (cf : Fin 8192 → Fin 256 → EReal) (r j : Fin 8192) : EReal :=
  Ideal.exp (shifted cf r j)

/-- `1` where the two rows carry the same label, else `0`. -/
def eqMask (lab : Fin 8192 → BitVec 32) (r j : Fin 8192) : EReal :=
  if lab r = lab j then 1 else 0

/-- `1` on the diagonal, else `0`. -/
def selfMask (r j : Fin 8192) : EReal :=
  if r = j then 1 else 0

/-- The sum of the exponentials over the columns of a different label. -/
def negSum (cf : Fin 8192 → Fin 256 → EReal) (lab : Fin 8192 → BitVec 32) (r : Fin 8192) : EReal :=
  ∑ j : Fin 8192, expS cf r j * (Ideal.ofBits .f32 0x3F800000#32 - eqMask lab r j)

/-- The positives of row `r`: same label, not `r` itself. -/
def posMask (lab : Fin 8192 → BitVec 32) (r j : Fin 8192) : EReal :=
  eqMask lab r j * (Ideal.ofBits .f32 0x3F800000#32 - selfMask r j)

def logProb (cf : Fin 8192 → Fin 256 → EReal) (lab : Fin 8192 → BitVec 32) (r j : Fin 8192) : EReal :=
  shifted cf r j - Ideal.log (expS cf r j + negSum cf lab r + Ideal.ofBits .f32 0x2EDBE6FF#32)

/-- The sum of the log-probabilities over the positives of row `r`. -/
def possum (cf : Fin 8192 → Fin 256 → EReal) (lab : Fin 8192 → BitVec 32) (r : Fin 8192) : EReal :=
  ∑ j : Fin 8192, posMask lab r j * logProb cf lab r j

/-- The number of positives of row `r`. -/
def poscount (lab : Fin 8192 → BitVec 32) (r : Fin 8192) : EReal :=
  ∑ j : Fin 8192, posMask lab r j

/-! The two conversions of a one-bit comparison to a float, at the extended reals: both are the
indicator of the equality. -/

/-- The unsigned reading of the bit `a = b`, as an extended real, is the indicator. -/
theorem uitofp_cmpi_eq (a b : BitVec 32) :
    FloatOps.uitofp (F := Ideal) .f32 (IntOp.cmpi .eq a b) = if a = b then (1 : EReal) else 0 := by
  show (((IntOp.cmpi .eq a b).toNat : ℝ) : EReal) = _
  unfold IntOp.cmpi
  by_cases h : a = b
  · simp [h]
  · simp [h]

/-- The bit `a = b` widened (zero-extended) to 32 bits and read signed, as an extended real, is the
    indicator too. -/
theorem sitofp_extui_cmpi_eq (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  by_cases h : a = b
  · have hb : (a == b) = true := by simpa using h
    have h1 : ((BitVec.ofBool true).setWidth 32).toInt = 1 := by decide
    rw [hb, h1, if_pos h]; norm_num
  · have hb : (a == b) = false := by simpa using h
    have h0 : ((BitVec.ofBool false).setWidth 32).toInt = 0 := by decide
    rw [hb, h0, if_neg h]; norm_num

end Cert.Spec

end
-- ==== Proof.RefValue.lean ====
/-
  The reference program's stages, read at an index, are the specification's row functions of the
  features `cf r k` (the view-major flattening of the input) and the labels `lab r` (the 64 labels
  tiled 128 times).  One lemma per intermediate stage: the scaled inner products, the row maximum,
  the shifted logits, the two masks, the exponentials, the sum over the negatives, the log-probabilities
  and the two per-row sums.
-/
import proofs.«174806_j49632642073101_1_alg».proof.Proof.Spec
import proofs.«174806_j49632642073101_1_alg».proof.Proof.Gen.ReferenceIdeal.Read

noncomputable section

open scoped BigOperators

namespace Cert.RefValue

open Cert.ReferenceIdeal Cert.ReferenceIdeal.Gen Cert.ReferenceIdeal.Read Idealize.ShloMosaic Idealize.ShloMosaic.ValueIdx

/-- The features: the flattened input at row `r`, coordinate `k`. -/
abbrev cfOf (x0 : (⟨S64x128x256, .f32⟩ : BufTy).Contents (Elt Ideal)) : Fin 8192 → Fin 256 → EReal :=
  fun r k => val_main_v1 (F := Ideal) x0 (ix2 r k)

/-- The labels: the tiled label vector at row `r`. -/
abbrev labOf (x1 : (⟨S64, .i32⟩ : BufTy).Contents (Elt Ideal)) : Fin 8192 → BitVec 32 :=
  fun r => val_main_v4 (F := Ideal) x1 (ix1 r)

/-! ## The temperature -/

/-- The word `0x3DCCCCCD` denotes the rational `13421773 / 134217728` (the binary32 number nearest 0.1). -/
theorem word_temperature : Ideal.ofBits .f32 0x3DCCCCCD#32 = ((13421773 / 134217728 : ℝ) : EReal) := by
  simp [Ideal.ofBits, Ideal.ieee, -EReal.coe_mul]
  norm_num

/-- Dividing by the temperature is multiplying by the scale `c`. -/
theorem div_temperature (x : EReal) : Ideal.div x (Ideal.ofBits .f32 0x3DCCCCCD#32) = x * Cert.Spec.c := by
  rw [word_temperature, Ideal.div_coe (by norm_num)]
  unfold Cert.Spec.c
  congr 2
  norm_num

/-! ## The scaled inner products -/

theorem v8_eq (x0 : (⟨S64x128x256, .f32⟩ : BufTy).Contents (Elt Ideal)) (r j : Fin 8192) :
    val_main_v8 (F := Ideal) x0 (ix2 r j) = Cert.Spec.logit (cfOf x0) r j := by
  rw [val_main_v8_apply, val_main_v6_apply, val_main_v7_apply, val_main_cst_apply]
  simp only [Ideal.hostDivf_def, Ideal.ofBits_def]
  rw [div_temperature]
  unfold Cert.Spec.logit
  refine congrArg (· * Cert.Spec.c) (Finset.sum_congr rfl fun k _ => ?_)
  rw [val_main_v5_apply]
  have e1 : lidx_main_v6 (ix2 r j) k = ix2 r k :=
    funext fun a => Fin.ext (by match a with | ⟨0, _⟩ => rfl | ⟨1, _⟩ => rfl)
  have e2 : idx_main_v5 (ridx_main_v6 (ix2 r j) k) = ix2 j k :=
    funext fun a => Fin.ext (by match a with | ⟨0, _⟩ => rfl | ⟨1, _⟩ => rfl)
  rw [e1, e2]

/-! ## The row maximum -/

theorem v9_eq (x0 : (⟨S64x128x256, .f32⟩ : BufTy).Contents (Elt Ideal)) (r : Fin 8192) :
    val_main_v9 (F := Ideal) x0 (ix1 r) = Cert.Spec.rowMax (cfOf x0) r := by
  unfold val_main_v9
  have hred : S8192x8192.Reduces [1] S8192 := by decide
  rw [Host.reduce_eq_fold_single FloatOps.maximumf _ _ reducesTo_S8192x8192_S8192_d1 hred h_S_ (ix1 r)]
  unfold Cert.Spec.rowMax
  have hl : ∀ j : Fin 8192, hred.lift (ix1 r) j = ix2 r j := fun j =>
    funext fun a => Fin.ext (by match a with | ⟨0, _⟩ => rfl | ⟨1, _⟩ => rfl)
  have hf : (val_main_v8 (F := Ideal) x0 ∘ hred.lift (ix1 r)) = fun j : Fin 8192 => Cert.Spec.logit (cfOf x0) r j :=
    funext fun (j : Fin 8192) => by
      show val_main_v8 (F := Ideal) x0 (hred.lift (ix1 r) j) = _
      rw [hl j]; exact v8_eq x0 r j
  rw [hf]
  rfl

/-! ## The shifted logits and their exponentials -/

theorem v12_eq (x0 : (⟨S64x128x256, .f32⟩ : BufTy).Contents (Elt Ideal)) (r j : Fin 8192) :
    val_main_v12 (F := Ideal) x0 (ix2 r j) = Cert.Spec.shifted (cfOf x0) r j := by
  rw [val_main_v12_apply, val_main_v11_apply, val_main_v10_apply]
  have e : idx_main_v10 (idx_main_v11 (ix2 r j)) = ix1 r :=
    funext fun a => Fin.ext (by match a with | ⟨0, _⟩ => rfl)
  rw [e, v8_eq, v9_eq]
  rfl

theorem v30_eq (x0 : (⟨S64x128x256, .f32⟩ : BufTy).Contents (Elt Ideal)) (r j : Fin 8192) :
    val_main_v30 (F := Ideal) x0 (ix2 r j) = Cert.Spec.expS (cfOf x0) r j := by
  rw [val_main_v30_apply, v12_eq]
  rfl

/-! ## The masks -/

theorem v18_eq (x1 : (⟨S64, .i32⟩ : BufTy).Contents (Elt Ideal)) (r j : Fin 8192) :
    val_main_v18 (F := Ideal) x1 (ix2 r j) = Cert.Spec.eqMask (labOf x1) r j := by
  rw [val_main_v18_apply, val_main_v17_apply, val_main_v15_apply, val_main_v16_apply, val_main_v13_apply,
    val_main_v14_apply]
  have e1 : idx_main_v13 (idx_main_v15 (ix2 r j)) = ix1 r :=
    funext fun a => Fin.ext (by match a with | ⟨0, _⟩ => rfl)
  have e2 : idx_main_v14 (idx_main_v16 (ix2 r j)) = ix1 j :=
    funext fun a => Fin.ext (by match a with | ⟨0, _⟩ => rfl)
  rw [e1, e2]
  exact Cert.Spec.uitofp_cmpi_eq _ _

/-- Two row numbers below `2 ^ 32` are equal exactly when their 32-bit words are. -/
theorem ofNat_eq_iff (r j : Fin 8192) : BitVec.ofNat 32 r.val = BitVec.ofNat 32 j.val ↔ r = j := by
  constructor
  · intro h
    have h' := congrArg BitVec.toNat h
    simp only [BitVec.toNat_ofNat] at h'
    have hr := r.isLt
    have hj := j.isLt
    exact Fin.ext (by omega)
  · rintro rfl; rfl

theorem v26_eq (r j : Fin 8192) :
    val_main_v26 (F := Ideal) (ix2 r j) = Cert.Spec.selfMask r j := by
  rw [val_main_v26_apply, val_main_v25_apply, val_main_v24_apply, val_main_v21_apply, val_main_v22_apply,
    val_main_v23_apply, val_main_c_apply]
  refine (Cert.Spec.uitofp_cmpi_eq _ _).trans ?_
  unfold Cert.Spec.selfMask
  have key : (IntOp.addi (BitVec.ofNat 32 ((ix2 r j : S8192x8192.Idx) 0).val) 0#32
      = BitVec.ofNat 32 ((ix2 r j : S8192x8192.Idx) 1).val) ↔ r = j := by
    show (BitVec.ofNat 32 r.val + 0#32 = BitVec.ofNat 32 j.val) ↔ r = j
    rw [BitVec.add_zero]
    exact ofNat_eq_iff r j
  by_cases h : r = j
  · rw [if_pos (key.mpr h), if_pos h]
  · rw [if_neg (mt key.mp h), if_neg h]

theorem v20_eq (x1 : (⟨S64, .i32⟩ : BufTy).Contents (Elt Ideal)) (r j : Fin 8192) :
    val_main_v20 (F := Ideal) x1 (ix2 r j)
      = Ideal.ofBits .f32 0x3F800000#32 - Cert.Spec.eqMask (labOf x1) r j := by
  rw [val_main_v20_apply, val_main_v19_apply, val_main_cst_1_apply, v18_eq]
  rfl

theorem v28_eq (r j : Fin 8192) :
    val_main_v28 (F := Ideal) (ix2 r j) = Ideal.ofBits .f32 0x3F800000#32 - Cert.Spec.selfMask r j := by
  rw [val_main_v28_apply, val_main_v27_apply, val_main_cst_2_apply, v26_eq]
  rfl

theorem v29_eq (x1 : (⟨S64, .i32⟩ : BufTy).Contents (Elt Ideal)) (r j : Fin 8192) :
    val_main_v29 (F := Ideal) x1 (ix2 r j) = Cert.Spec.posMask (labOf x1) r j := by
  rw [val_main_v29_apply, v18_eq, v28_eq]
  rfl

/-! ## The sum over the negatives -/

theorem v32_eq (x0 : (⟨S64x128x256, .f32⟩ : BufTy).Contents (Elt Ideal)) (x1 : (⟨S64, .i32⟩ : BufTy).Contents (Elt Ideal))
    (r : Fin 8192) :
    val_main_v32 (F := Ideal) x0 x1 (ix1 r) = Cert.Spec.negSum (cfOf x0) (labOf x1) r := by
  rw [val_main_v32_apply, val_main_cst_3_apply]
  simp only [Ideal.ofBits_def, Ideal.ofBits_zero_f32, zero_add]
  unfold Cert.Spec.negSum
  refine Finset.sum_congr rfl fun j _ => ?_
  have e : idx_main_v32 (ix1 r) j = ix2 r j :=
    funext fun a => Fin.ext (by match a with | ⟨0, _⟩ => rfl | ⟨1, _⟩ => rfl)
  rw [e, val_main_v31_apply, v30_eq, v20_eq]
  rfl

/-! ## The log-probabilities -/

theorem v39_eq (x0 : (⟨S64x128x256, .f32⟩ : BufTy).Contents (Elt Ideal)) (x1 : (⟨S64, .i32⟩ : BufTy).Contents (Elt Ideal))
    (r j : Fin 8192) :
    val_main_v39 (F := Ideal) x0 x1 (ix2 r j) = Cert.Spec.logProb (cfOf x0) (labOf x1) r j := by
  rw [val_main_v39_apply, val_main_v38_apply, val_main_v37_apply, val_main_v35_apply, val_main_v34_apply,
    val_main_v33_apply, val_main_v36_apply, val_main_cst_4_apply]
  have e : idx_main_v33 (idx_main_v34 (ix2 r j)) = ix1 r :=
    funext fun a => Fin.ext (by match a with | ⟨0, _⟩ => rfl)
  rw [e, v12_eq, v30_eq, v32_eq]
  rfl

/-! ## The two per-row sums -/

theorem v41_eq (x0 : (⟨S64x128x256, .f32⟩ : BufTy).Contents (Elt Ideal)) (x1 : (⟨S64, .i32⟩ : BufTy).Contents (Elt Ideal))
    (r : Fin 8192) :
    val_main_v41 (F := Ideal) x0 x1 (ix1 r) = Cert.Spec.possum (cfOf x0) (labOf x1) r := by
  rw [val_main_v41_apply, val_main_cst_5_apply]
  simp only [Ideal.ofBits_def, Ideal.ofBits_zero_f32, zero_add]
  unfold Cert.Spec.possum
  refine Finset.sum_congr rfl fun j _ => ?_
  have e : idx_main_v41 (ix1 r) j = ix2 r j :=
    funext fun a => Fin.ext (by match a with | ⟨0, _⟩ => rfl | ⟨1, _⟩ => rfl)
  rw [e, val_main_v40_apply, v29_eq, v39_eq]
  rfl

theorem v42_eq (x1 : (⟨S64, .i32⟩ : BufTy).Contents (Elt Ideal)) (r : Fin 8192) :
    val_main_v42 (F := Ideal) x1 (ix1 r) = Cert.Spec.poscount (labOf x1) r := by
  rw [val_main_v42_apply, val_main_cst_6_apply]
  simp only [Ideal.ofBits_def, Ideal.ofBits_zero_f32, zero_add]
  unfold Cert.Spec.poscount
  refine Finset.sum_congr rfl fun j _ => ?_
  have e : idx_main_v42 (ix1 r) j = ix2 r j :=
    funext fun a => Fin.ext (by match a with | ⟨0, _⟩ => rfl | ⟨1, _⟩ => rfl)
  rw [e, v29_eq]

/-- The reference's sum of the positives' log-probabilities, at every row, is the specification's. -/
theorem possum_eq (x0 : (⟨S64x128x256, .f32⟩ : BufTy).Contents (Elt Ideal)) (x1 : (⟨S64, .i32⟩ : BufTy).Contents (Elt Ideal))
    (i : S8192.Idx) :
    val_main_v41 (F := Ideal) x0 x1 i = Cert.Spec.possum (cfOf x0) (labOf x1) (i 0) := by
  exact (congrArg (val_main_v41 (F := Ideal) x0 x1) (eq_ix1 i)).trans (v41_eq x0 x1 (i 0))

/-- The reference's count of the positives, at every row, is the specification's. -/
theorem poscount_eq (x1 : (⟨S64, .i32⟩ : BufTy).Contents (Elt Ideal)) (i : S8192.Idx) :
    val_main_v42 (F := Ideal) x1 i = Cert.Spec.poscount (labOf x1) (i 0) := by
  exact (congrArg (val_main_v42 (F := Ideal) x1) (eq_ix1 i)).trans (v42_eq x1 (i 0))

end Cert.RefValue

end
-- ==== Proof.RefTail.lean ====
/-
  The reference's last operations: from the two per-row sums to the loss.  Each row's sum over its
  positives is divided by the row's count of positives and multiplied by a constant (the word
  `0xBFB6DB6E`), and the mean over the 8192 rows is taken (a sum from zero, divided by the word
  `0x46000000`).  The float literals stay the words they are written as.
-/
import proofs.«174806_j49632642073101_1_alg».proof.Proof.RefValue

noncomputable section

open scoped BigOperators

namespace Cert.RefValue

open Cert.ReferenceIdeal Cert.ReferenceIdeal.Gen Cert.ReferenceIdeal.Read Idealize.ShloMosaic Idealize.ShloMosaic.ValueIdx

/-- The loss from the per-row sums `ps` and counts `pc`: the mean over the rows of the scaled quotients. -/
def tail (ps pc : Fin 8192 → EReal) : EReal :=
  Ideal.div (∑ r : Fin 8192, Ideal.ofBits .f32 0xBFB6DB6E#32 * Ideal.div (ps r) (pc r))
    (Ideal.ofBits .f32 0x46000000#32)

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- So a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's result is the loss of its own two per-row sums. -/
theorem v47_eq_tail (x0 : (⟨S64x128x256, .f32⟩ : BufTy).Contents (Elt Ideal)) (x1 : (⟨S64, .i32⟩ : BufTy).Contents (Elt Ideal))
    (i : S_.Idx) :
    val_main_v47 (F := Ideal) x0 x1 i
      = tail (fun r => val_main_v41 (F := Ideal) x0 x1 (ix1 r)) (fun r => val_main_v42 (F := Ideal) x1 (ix1 r)) := by
  unfold tail
  rw [val_main_v47_apply, val_main_v46_apply, val_main_cst_8_apply, val_main_cst_9_apply, sum_idx1]
  simp only [val_main_v45_apply, val_main_v44_apply, val_main_cst_7_apply, val_main_v43_apply, Ideal.hostDivf_def,
    Ideal.mulf_def, Ideal.ofBits_def, Ideal.ofBits_zero_f32, zero_add]

/-- The reference's result is the loss of the specification's two per-row sums. -/
theorem v47_eq (x0 : (⟨S64x128x256, .f32⟩ : BufTy).Contents (Elt Ideal)) (x1 : (⟨S64, .i32⟩ : BufTy).Contents (Elt Ideal))
    (i : S_.Idx) :
    val_main_v47 (F := Ideal) x0 x1 i
      = tail (Cert.Spec.possum (cfOf x0) (labOf x1)) (Cert.Spec.poscount (labOf x1)) := by
  rw [v47_eq_tail]
  congr 1
  · exact funext fun r => v41_eq x0 x1 r
  · exact funext fun r => v42_eq x1 r

end Cert.RefValue

end
-- ==== Proof.KernelTail.lean ====
/-
  The kernel program's last host operations, read as the same loss as the reference's: the two result
  columns (each `8192 × 1`) are flattened, divided row by row, multiplied by a constant (the word
  `0xBFB6DB6E`), summed from zero and divided by the word `0x46000000`.
-/
import proofs.«174806_j49632642073101_1_alg».proof.Proof.Gen.KernelIdeal
import proofs.«174806_j49632642073101_1_alg».proof.Proof.RefTail
import Idealize.ShloMosaic.Lib.Pipeline.Value

noncomputable section

open scoped BigOperators

namespace Cert.KernelTail

open Cert.KernelIdeal Cert.KernelIdeal.Gen Idealize.ShloMosaic Idealize.ShloMosaic.ValueIdx

/-- The host operations after the kernel call, in the program's order, on the two result columns. -/
def kernelTail (a b : (⟨S8192x1, .f32⟩ : BufTy).Contents (Elt Ideal)) : (⟨S_, .f32⟩ : BufTy).Contents (Elt Ideal) :=
  Host.divf (F := Ideal)
    (Host.reduceAdd (F := Ideal)
      (mulf (F := Ideal) (broadcastInDim S8192 ![] bcast_S_S8192 (constant (F := Ideal) S_ .f32 0xBFB6DB6E#32))
        (Host.divf (F := Ideal) (shapeCast S8192 a shapeCasts_S8192x1_S8192)
          (shapeCast S8192 b shapeCasts_S8192x1_S8192)))
      (constant (F := Ideal) S_ .f32 0x00000000#32) reducesTo_S8192_S_d0 h_S_)
    (constant (F := Ideal) S_ .f32 0x46000000#32)

/-- A column flattened, read at row `r`, is the column at `(r, 0)`. -/
theorem flatten_apply (y : (⟨S8192x1, .f32⟩ : BufTy).Contents (Elt Ideal)) (r : Fin 8192) :
    shapeCast S8192 y shapeCasts_S8192x1_S8192 (ix1 r) = y (ix2 r 0) :=
  shapeCast_apply y shapeCasts_S8192x1_S8192 (ix1 r) (ix2 r 0)
    (by rewrite [Shape.rowMajor_val_two, Shape.rowMajor_val_one]; show r.val * 1 + 0 = r.val; omega)

/-- The scaled quotients of the two flattened columns. -/
def scaled (a b : (⟨S8192x1, .f32⟩ : BufTy).Contents (Elt Ideal)) : (⟨S8192, .f32⟩ : BufTy).Contents (Elt Ideal) :=
  mulf (F := Ideal) (broadcastInDim S8192 ![] bcast_S_S8192 (constant (F := Ideal) S_ .f32 0xBFB6DB6E#32))
    (Host.divf (F := Ideal) (shapeCast S8192 a shapeCasts_S8192x1_S8192)
      (shapeCast S8192 b shapeCasts_S8192x1_S8192))

/-- The scaled quotients, read at row `r`. -/
theorem scaled_apply (a b : (⟨S8192x1, .f32⟩ : BufTy).Contents (Elt Ideal)) (r : Fin 8192) :
    scaled a b (ix1 r) = Ideal.ofBits .f32 0xBFB6DB6E#32 * Ideal.div (a (ix2 r 0)) (b (ix2 r 0)) := by
  show broadcastInDim S8192 ![] bcast_S_S8192 (constant (F := Ideal) S_ .f32 0xBFB6DB6E#32) (ix1 r)
      * Ideal.div (shapeCast S8192 a shapeCasts_S8192x1_S8192 (ix1 r)) (shapeCast S8192 b shapeCasts_S8192x1_S8192 (ix1 r)) = _
  rw [flatten_apply, flatten_apply,
    broadcastInDim_apply _ bcast_S_S8192 _ (ix1 r) (fun x => x.elim0) (fun x => x.elim0)]
  rfl

/-- Their sum over the rows. -/
theorem sum_scaled (a b : (⟨S8192x1, .f32⟩ : BufTy).Contents (Elt Ideal)) :
    ∑ j : S8192.Idx, scaled a b j
      = ∑ r : Fin 8192, Ideal.ofBits .f32 0xBFB6DB6E#32 * Ideal.div (a (ix2 r 0)) (b (ix2 r 0)) := by
  rw [Cert.RefValue.sum_idx1]
  exact Finset.sum_congr rfl fun r _ => scaled_apply a b r

/-- The kernel program's closing operations compute the loss of the two columns' rows. -/
theorem kernelTail_eq (a b : (⟨S8192x1, .f32⟩ : BufTy).Contents (Elt Ideal)) (i : S_.Idx) :
    kernelTail a b i = Cert.RefValue.tail (fun r => a (ix2 r 0)) (fun r => b (ix2 r 0)) := by
  have h0 : kernelTail a b i
      = Ideal.div (Ideal.ofBits .f32 0x00000000#32 + ∑ j : S8192.Idx, scaled a b j) (Ideal.ofBits .f32 0x46000000#32) :=
    congrArg (fun z => Ideal.div z (Ideal.ofBits .f32 0x46000000#32))
      (Ideal.hostReduceAdd_total reducesTo_S8192_S_d0 (fun b => b.elim0) (scaled a b) (Ideal.ofBits .f32 0x00000000#32) i)
  rw [h0, sum_scaled, Ideal.ofBits_zero_f32, zero_add]
  rfl

end Cert.KernelTail

end
-- ==== Proof.LibRowOps.lean ====
/-
  Row operations on a two-axis array, read at one entry.

  A matrix with `a` rows and `b` columns meets four operations whenever a quantity is computed per row and
  spread back over the row: the sum of a row (a reduction along the second axis), the column of per-row
  values viewed as an `a × 1` matrix, that column spread across the `b` columns, and a product of two matrices
  that contracts the second axis of both (each entry is the inner product of a row of the left operand
  with a row of the right one).  Each lemma says what the result holds at row `r` and column `c`.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

variable {α : Type}

/-- A vector of `a` entries viewed as an `a × 1` column holds entry `r` at `(r, 0)`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- An `a × 1` column spread over `b` columns holds, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the exact values the sum along the second axis, read at row `r`, is the sum of that row's entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  apply Fin.ext
  match ax with
  | ⟨0, _⟩ => rfl
  | ⟨1, _⟩ => rfl

/-- `(l · rᵀ)[p, j] = ∑ k, l[p,k] · r[j,k]`: a product into the zero accumulator that contracts the second axis
    of both operands, so that its left operand index at output `i` and contraction position `q` is `(i 0, q)`
    and its right operand index is `(i 1, q)`. -/
theorem matmul_rows_zero_apply {M K N : ℕ} {φ₁ φ₂ : FTy}
    (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (prec : Option ContractPrecision) (l : FVec Ideal ⟨2, ![M, K]⟩ φ₁) (r : FVec Ideal ⟨2, ![N, K]⟩ φ₂)
    (p : Fin M) (j : Fin N) :
    matmul D prec l r (constant (F := Ideal) ⟨2, ![M, N]⟩ .f32 0x00000000#32) (ix2 p j)
      = ∑ k : Fin K, l (ix2 p k) * r (ix2 j k) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

end Cert.LibRowOps

end
-- ==== Proof.KernelOps.lean ====
/-
  The kernel body's non-pointwise operations, each read at one entry.

  For one block of 64 query rows against all 8192 keys the body forms a 64 × 8192 matrix of inner products, takes
  row maxima and row sums, views a per-row vector as a 64 × 1 column and spreads it (or a 1 × 8192 row of per-key
  values) over the whole 64 × 8192 matrix, and compares integer words.  Every lemma here says what one such operation
  holds at row p and column j.
-/
import proofs.«174806_j49632642073101_1_alg».proof.KernelIdeal
import proofs.«174806_j49632642073101_1_alg».proof.Proof.LibRowOps

noncomputable section

open scoped BigOperators

namespace Cert.KernelOps

open Idealize.ShloMosaic Idealize.ShloMosaic.ValueIdx Cert.KernelIdeal

variable [Cert.KernelIdeal.Facts]
open Cert.KernelIdeal.Facts₀ Cert.KernelIdeal.Facts

/-- The matrix of inner products: entry (p, j) of the product that contracts the second axis of both operands is
    the inner product of row p of the left operand with row j of the right one. -/
theorem matmul_at (l : FVec Ideal S64x256 .bf16) (r : FVec Ideal S8192x256 .bf16) (p : Fin 64) (j : Fin 8192) :
    matmul dot_S64x256_S8192x256_S64x8192_1_1_0_0_n_n none l r (constant (F := Ideal) S64x8192 .f32 0x00000000#32) (ix2 p j)
      = ∑ k : Fin 256, l (ix2 p k) * r (ix2 j k) := by
  refine Cert.LibRowOps.matmul_rows_zero_apply dot_S64x256_S8192x256_S64x8192_1_1_0_0_n_n rfl rfl ?_ ?_ ?_ ?_ none l r p j
  · intro i q
    unfold DotDims.lhsIdx
    rw [dif_neg (show ¬(0 : Fin S64x256.rank) ∈ dot_S64x256_S8192x256_S64x8192_1_1_0_0_n_n.lhsBatch from List.not_mem_nil),
      dif_pos (show (0 : Fin S64x256.rank) ∈ dot_S64x256_S8192x256_S64x8192_1_1_0_0_n_n.lhsNonContracting from List.mem_cons_self)]
    rfl
  · intro i q
    exact dot_S64x256_S8192x256_S64x8192_1_1_0_0_n_n.lhsIdx_val_of_single rfl i q
  · intro i q
    unfold DotDims.rhsIdx
    rw [dif_neg (show ¬(0 : Fin S8192x256.rank) ∈ dot_S64x256_S8192x256_S64x8192_1_1_0_0_n_n.rhsBatch from List.not_mem_nil),
      dif_pos (show (0 : Fin S8192x256.rank) ∈ dot_S64x256_S8192x256_S64x8192_1_1_0_0_n_n.rhsNonContracting from List.mem_cons_self)]
    rfl
  · intro i q
    exact dot_S64x256_S8192x256_S64x8192_1_1_0_0_n_n.rhsIdx_val_of_single rfl i q

/-- The maximum of row p: the fold of max, from the accumulator's value, over the 8192 entries of that row. -/
theorem rowMax_at (src : FVec Ideal S64x8192 .f32) (p : Fin 64) :
    multiReduction (F := Ideal) .maximumf [1] S64 src 0xFF800000#32 reduces_S64x8192_S64 (.inl rfl) rfl (ix1 p)
      = (Finset.univ : Finset (Fin 8192)).fold max (Ideal.ofBits .f32 0xFF800000#32) (fun j => src (ix2 p j)) := by
  refine (Ideal.multiReduction_maximumf_single src 0xFF800000#32 reduces_S64x8192_S64 (.inl rfl) rfl (ix1 p)).trans ?_
  refine congrArg (fun f => (Finset.univ : Finset (Fin 8192)).fold max (Ideal.ofBits .f32 0xFF800000#32) f) ?_
  funext j
  refine congrArg src ?_
  funext ax
  apply Fin.ext
  match ax with
  | ⟨0, _⟩ => rfl
  | ⟨1, _⟩ => rfl

/-- The sum of row p. -/
theorem rowSum_at (src : FVec Ideal S64x8192 .f32) (p : Fin 64) :
    multiReduction (F := Ideal) .add [1] S64 src 0x00000000#32 reduces_S64x8192_S64 (.inl rfl) rfl (ix1 p)
      = ∑ j : Fin 8192, src (ix2 p j) :=
  Cert.LibRowOps.rowSum_apply src reduces_S64x8192_S64 (.inl rfl) rfl p

/-- A per-row vector viewed as a column holds the vector's entry p at (p, 0). -/
theorem column_at {α : Type} (x : S64.Idx → α) (p : Fin 64) (u : Fin 1) :
    shapeCast S64x1 x shapeCasts_S64_S64x1 (ix2 p u) = x (ix1 p) :=
  Cert.LibRowOps.shapeCast_a_a1_apply x shapeCasts_S64_S64x1 p u

/-- A column spread over the 8192 columns holds, at (p, j), the column's entry of row p. -/
theorem spreadColumn_at {α : Type} (v : S64x1.Idx → α) (p : Fin 64) (j : Fin 8192) :
    broadcastTo S64x8192 v broadcasts_S64x1_S64x8192 (ix2 p j) = v (ix2 p (0 : Fin 1)) :=
  Cert.LibRowOps.broadcastTo_a1_ab_apply v broadcasts_S64x1_S64x8192 p j

/-- A row of per-key values spread over the 64 rows holds, at (p, j), the row's entry of column j. -/
theorem spreadRow_at {α : Type} (v : S1x8192.Idx → α) (p : Fin 64) (j : Fin 8192) :
    broadcastTo S64x8192 v broadcasts_S1x8192_S64x8192 (ix2 p j) = v (ix2 (0 : Fin 1) j) := by
  refine broadcastTo_apply v broadcasts_S1x8192_S64x8192 (ix2 p j) (ix2 (0 : Fin 1) j) fun ax => ?_
  match ax with
  | ⟨0, _⟩ => rfl
  | ⟨1, _⟩ => rfl

/-- The row counter along the first axis of a 64 × 1 column reads the row number. -/
theorem iotaRows_at (p : Fin 64) (u : Fin 1) :
    iota .tc S64x1 32 [0] iota_S64x1_d0_w32 (ix2 p u) = BitVec.ofNat 32 p.val :=
  iota_single_apply .tc S64x1 32 0 iota_S64x1_d0_w32 (ix2 p u)

/-- The column counter along the second axis of a 1 × 8192 row reads the column number. -/
theorem iotaCols_at (u : Fin 1) (j : Fin 8192) :
    iota .tc S1x8192 32 [1] iota_S1x8192_d1_w32 (ix2 u j) = BitVec.ofNat 32 j.val :=
  iota_single_apply .tc S1x8192 32 1 iota_S1x8192_d1_w32 (ix2 u j)

end Cert.KernelOps

end
-- ==== Proof.KernelRow.lean ====
/-
  One block of the kernel, row by row.

  A grid point t (below 128) holds 64 query rows — rows 64·t … 64·t + 63 of the 8192 × 256 feature array — together
  with all 8192 key rows and both label arrays, and stores two 64 × 1 columns.  Reading the body's arithmetic entry by
  entry — inner products scaled by the reciprocal temperature, the row maximum subtracted, exponentials, the
  same-label and diagonal masks, the sum of exponentials over the other labels, the log-probabilities — the first
  stored column holds at p the specification's sum of log-probabilities over the positives of row 64·t + p
  (possum_row) and the second the number of those positives (poscount_row).
-/
import proofs.«174806_j49632642073101_1_alg».proof.Proof.Gen.KernelIdeal.Skeleton
import proofs.«174806_j49632642073101_1_alg».proof.Proof.Spec
import proofs.«174806_j49632642073101_1_alg».proof.Proof.KernelOps

noncomputable section

open scoped BigOperators

namespace Cert.KernelRow

open Idealize.ShloMosaic Idealize.ShloMosaic.ValueIdx Cert.KernelIdeal Cert.KernelOps

variable [Cert.KernelIdeal.Facts]
open Cert.KernelIdeal.Facts₀ Cert.KernelIdeal.Facts

/-- Row p of block t is row 64·t + p of the whole array. -/
abbrev blockRow (t : ℕ) (ht : t < 128) (p : Fin 64) : Fin 8192 := ⟨64 * t + p.val, by have := p.isLt; omega⟩

/-- The scale the kernel multiplies the inner products by is the specification's: the name denotes the rational
    134217728 / 13421773, the reciprocal of the temperature. -/
theorem scale_eq : Named.named (F := Ideal) Cert.KernelIdeal.κ "fold_c_134217728_13421773" (φ := .f32) 0x41200000#32 = Cert.Spec.c :=
  IdealRules.named_const.ideal_named_scalar _ _ _ _ rfl

/-- Entry (p, j) of the block's shifted logits: the scaled inner product of row 64·t + p with row j, less the
    maximum of that row's scaled inner products over all 8192 columns. -/
theorem pay3_at (cf : Fin 8192 → Fin 256 → EReal) (t : ℕ) (ht : t < 128)
    (v0 : Vec Ideal S64x256 .bf16) (v2 : Vec Ideal S8192x256 .bf16)
    (h0 : ∀ (p : Fin 64) (k : Fin 256), v0 (ix2 p k) = cf (blockRow t ht p) k)
    (h2 : ∀ (j : Fin 8192) (k : Fin 256), v2 (ix2 j k) = cf j k) (p : Fin 64) (j : Fin 8192) :
    Gen.k0_pay3 (F := Ideal) v0 v2 (ix2 p j) = Cert.Spec.shifted cf (blockRow t ht p) j := by
  unfold Gen.k0_pay3
  simp only [shapeCast_self]
  rw [subf_apply, spreadColumn_at, column_at, rowMax_at]
  simp only [mulf_apply, broadcast_apply, matmul_at, scale_eq, h0, h2]
  rfl

/-- An integer comparison of two arrays compares entry by entry. -/
theorem cmpi_at {s : Shape} (a b : IVec s 32) (i : s.Idx) : cmpi .eq a b i = IntOp.cmpi .eq (a i) (b i) := rfl

/-- An integer sum of two arrays adds entry by entry. -/
theorem addi_at {s : Shape} (a b : IVec s 32) (i : s.Idx) : addi a b i = a i + b i := rfl

/-- Entry (p, j) of the block's same-label mask: 1 when row 64·t + p and row j carry the same label, else 0. -/
theorem pay4_at (lab : Fin 8192 → BitVec 32) (t : ℕ) (ht : t < 128)
    (v12 : Vec Ideal S64x1 .i32) (v14 : Vec Ideal S1x8192 .i32)
    (h12 : ∀ p : Fin 64, v12 (ix2 p (0 : Fin 1)) = lab (blockRow t ht p))
    (h14 : ∀ j : Fin 8192, v14 (ix2 (0 : Fin 1) j) = lab j) (p : Fin 64) (j : Fin 8192) :
    Gen.k0_pay4 (F := Ideal) v12 v14 (ix2 p j) = Cert.Spec.eqMask lab (blockRow t ht p) j := by
  unfold Gen.k0_pay4
  simp only [shapeCast_self]
  rw [sitofp_apply, extui_apply, cmpi_at, spreadColumn_at, spreadRow_at, h12, h14, Cert.Spec.sitofp_extui_cmpi_eq]
  rfl

/-- In 32-bit words, 64·t + p (t below 128, p below 64) equals j (below 8192) exactly when the naturals agree:
    nothing wraps. -/
theorem rowcol_eq (t p j : Nat) (ht : t < 128) (hp : p < 64) (hj : j < 8192) :
    (BitVec.ofNat 32 t * 64#32 + BitVec.ofNat 32 p = BitVec.ofNat 32 j) ↔ 64 * t + p = j := by
  constructor
  · intro h
    have := congrArg BitVec.toNat h
    simp only [BitVec.toNat_add, BitVec.toNat_mul, BitVec.toNat_ofNat] at this
    omega
  · intro h
    subst h
    apply BitVec.eq_of_toNat_eq
    simp only [BitVec.toNat_add, BitVec.toNat_mul, BitVec.toNat_ofNat]
    omega

/-- The indicator of "the row counter 64·t + p equals the column counter j", on words, is the diagonal mask. -/
theorem selfWord_eq (t : ℕ) (ht : t < 128) (p : Fin 64) (j : Fin 8192) :
    (if Scalar.muli (BitVec.ofNat 32 t) 64#32 + BitVec.ofNat 32 p.val = BitVec.ofNat 32 j.val then (1 : EReal) else 0)
      = Cert.Spec.selfMask (blockRow t ht p) j := by
  unfold Cert.Spec.selfMask
  refine if_congr ?_ rfl rfl
  rw [show Scalar.muli (BitVec.ofNat 32 t) 64#32 = BitVec.ofNat 32 t * 64#32 from rfl,
    rowcol_eq t p.val j.val ht p.isLt j.isLt, Fin.ext_iff]

/-- Entry (p, j) of the block's mask of positives: same label, and j is not the row 64·t + p itself. -/
theorem pay5_at (lab : Fin 8192 → BitVec 32) (i : grid0.Coords) (t : ℕ) (ht : t < 128) (hi : (i 0).val = t)
    (v12 : Vec Ideal S64x1 .i32) (v14 : Vec Ideal S1x8192 .i32)
    (h12 : ∀ p : Fin 64, v12 (ix2 p (0 : Fin 1)) = lab (blockRow t ht p))
    (h14 : ∀ j : Fin 8192, v14 (ix2 (0 : Fin 1) j) = lab j) (p : Fin 64) (j : Fin 8192) :
    Gen.k0_pay5 (F := Ideal) i v12 v14 (ix2 p j) = Cert.Spec.posMask lab (blockRow t ht p) j := by
  unfold Gen.k0_pay5
  simp only []
  rw [mulf_apply, pay4_at lab t ht v12 v14 h12 h14, subf_apply, broadcast_apply, sitofp_apply, extui_apply, cmpi_at,
    spreadColumn_at, spreadRow_at, addi_at, broadcast_apply, iotaRows_at, iotaCols_at, Cert.Spec.sitofp_extui_cmpi_eq, hi,
    selfWord_eq t ht p j]
  rfl

/-- The exponential of an array is taken entry by entry. -/
theorem exp_at {s : Shape} (a : FVec Ideal s .f32) (i : s.Idx) : exp a i = Ideal.exp (a i) := rfl

/-- The logarithm of an array is taken entry by entry. -/
theorem log_at {s : Shape} (a : FVec Ideal s .f32) (i : s.Idx) : log a i = Ideal.log (a i) := rfl

/-- Entry (p, j) of the block's denominators: the exponential at (p, j), plus the row's sum of exponentials over the
    columns of a different label, plus ε. -/
theorem pay6_at (cf : Fin 8192 → Fin 256 → EReal) (lab : Fin 8192 → BitVec 32) (t : ℕ) (ht : t < 128)
    (v0 : Vec Ideal S64x256 .bf16) (v2 : Vec Ideal S8192x256 .bf16)
    (v12 : Vec Ideal S64x1 .i32) (v14 : Vec Ideal S1x8192 .i32)
    (h0 : ∀ (p : Fin 64) (k : Fin 256), v0 (ix2 p k) = cf (blockRow t ht p) k)
    (h2 : ∀ (j : Fin 8192) (k : Fin 256), v2 (ix2 j k) = cf j k)
    (h12 : ∀ p : Fin 64, v12 (ix2 p (0 : Fin 1)) = lab (blockRow t ht p))
    (h14 : ∀ j : Fin 8192, v14 (ix2 (0 : Fin 1) j) = lab j) (p : Fin 64) (j : Fin 8192) :
    Gen.k0_pay6 (F := Ideal) v0 v2 v12 v14 (ix2 p j)
      = Cert.Spec.expS cf (blockRow t ht p) j + Cert.Spec.negSum cf lab (blockRow t ht p) + Ideal.ofBits .f32 0x2EDBE6FF#32 := by
  unfold Gen.k0_pay6
  rw [addf_apply, addf_apply, broadcast_apply, spreadColumn_at, column_at, rowSum_at]
  simp only [mulf_apply, subf_apply, broadcast_apply, exp_at, pay3_at cf t ht v0 v2 h0 h2, pay4_at lab t ht v12 v14 h12 h14]
  rfl

/-- From per-entry readings of the shifted logits, the mask of positives and the denominators along row p, the
    first stored column holds at p the sum over the positives of shifted logit minus log denominator. -/
theorem pay1_at (cf : Fin 8192 → Fin 256 → EReal) (lab : Fin 8192 → BitVec 32) (r : Fin 8192)
    (v10 v38 v42 : FVec Ideal S64x8192 .f32) (p : Fin 64)
    (h10 : ∀ j : Fin 8192, v10 (ix2 p j) = Cert.Spec.shifted cf r j)
    (h38 : ∀ j : Fin 8192, v38 (ix2 p j) = Cert.Spec.posMask lab r j)
    (h42 : ∀ j : Fin 8192, v42 (ix2 p j) = Cert.Spec.expS cf r j + Cert.Spec.negSum cf lab r + Ideal.ofBits .f32 0x2EDBE6FF#32) :
    Gen.k0_pay1 (F := Ideal) v10 v38 v42 (ix2 p (0 : Fin 1)) = Cert.Spec.possum cf lab r := by
  unfold Gen.k0_pay1
  rw [column_at, rowSum_at]
  simp only [mulf_apply, subf_apply, log_at, h10, h38, h42]
  rfl

/-- From a per-entry reading of the mask of positives along row p, the second stored column holds at p the
    number of positives. -/
theorem pay2_at (lab : Fin 8192 → BitVec 32) (r : Fin 8192) (v38 : FVec Ideal S64x8192 .f32) (p : Fin 64)
    (h38 : ∀ j : Fin 8192, v38 (ix2 p j) = Cert.Spec.posMask lab r j) :
    Gen.k0_pay2 (F := Ideal) v38 (ix2 p (0 : Fin 1)) = Cert.Spec.poscount lab r := by
  unfold Gen.k0_pay2
  rw [column_at, rowSum_at]
  simp only [h38]
  rfl

/-- What one grid point stores into its block of the first result: the sum of the log-probabilities over the positives. -/
theorem possum_row (cf : Fin 8192 → Fin 256 → EReal) (lab : Fin 8192 → BitVec 32)
    (i : grid0.Coords) (t : ℕ) (ht : t < 128) (hi : (i 0).val = t)
    (v0 : Vec Ideal S64x256 .bf16) (v2 : Vec Ideal S8192x256 .bf16)
    (v12 : Vec Ideal S64x1 .i32) (v14 : Vec Ideal S1x8192 .i32)
    (h0 : ∀ (p : Fin 64) (k : Fin 256), v0 (ix2 p k) = cf (blockRow t ht p) k)
    (h2 : ∀ (j : Fin 8192) (k : Fin 256), v2 (ix2 j k) = cf j k)
    (h12 : ∀ p : Fin 64, v12 (ix2 p (0 : Fin 1)) = lab (blockRow t ht p))
    (h14 : ∀ j : Fin 8192, v14 (ix2 (0 : Fin 1) j) = lab j) (p : Fin 64) :
    Gen.k0_pay1 (F := Ideal) (Gen.k0_pay3 v0 v2) (Gen.k0_pay5 i v12 v14) (Gen.k0_pay6 v0 v2 v12 v14) (ix2 p (0 : Fin 1))
      = Cert.Spec.possum cf lab (blockRow t ht p) :=
  pay1_at cf lab (blockRow t ht p) _ _ _ p (fun j => pay3_at cf t ht v0 v2 h0 h2 p j)
    (fun j => pay5_at lab i t ht hi v12 v14 h12 h14 p j) (fun j => pay6_at cf lab t ht v0 v2 v12 v14 h0 h2 h12 h14 p j)

/-- What one grid point stores into its block of the second result: the number of positives. -/
theorem poscount_row (lab : Fin 8192 → BitVec 32)
    (i : grid0.Coords) (t : ℕ) (ht : t < 128) (hi : (i 0).val = t)
    (v12 : Vec Ideal S64x1 .i32) (v14 : Vec Ideal S1x8192 .i32)
    (h12 : ∀ p : Fin 64, v12 (ix2 p (0 : Fin 1)) = lab (blockRow t ht p))
    (h14 : ∀ j : Fin 8192, v14 (ix2 (0 : Fin 1) j) = lab j) (p : Fin 64) :
    Gen.k0_pay2 (F := Ideal) (Gen.k0_pay5 i v12 v14) (ix2 p (0 : Fin 1)) = Cert.Spec.poscount lab (blockRow t ht p) :=
  pay2_at lab (blockRow t ht p) _ p (fun j => pay5_at lab i t ht hi v12 v14 h12 h14 p j)
end Cert.KernelRow

end
-- ==== Proof.KernelFinal.lean ====
/-
  From the blocks to the two result arrays.

  The grid has 128 points; point t reads the query rows 64·t … 64·t + 63 of the features and of the labels, reads all
  keys and all key labels, and writes back rows 64·t … 64·t + 63 of each result.  Each block read is the array read
  at "block index × block size + coordinate inside the block"; what a point writes back is, by the row-by-row reading
  of the body, the block of ONE function of the whole arrays (the specification's two per-row sums); and the 128
  blocks tile the 8192 rows (row r belongs to point r / 64).  So after the last point each result array holds that
  function at every row.
-/
import proofs.«174806_j49632642073101_1_alg».proof.Proof.IdealData
import proofs.«174806_j49632642073101_1_alg».proof.Proof.KernelRow
import Idealize.ShloMosaic.Lib.Pipeline.Value
import Idealize.ShloMosaic.Lib.Tactic

noncomputable section

open scoped BigOperators

namespace Cert.KernelFinal

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The features as the kernel's grid finds them: the flattened 8192 × 256 array both feature windows read. -/
def cfK (c : Dev nD) : Fin 8192 → Fin 256 → EReal :=
  fun r k => (V m c main_v2 : S8192x256.Idx → Elt Ideal .bf16) (ix2 r k)
/-- The labels as the kernel's grid finds them: entry r of the 8192 × 1 column of labels. -/
def labK (c : Dev nD) : Fin 8192 → BitVec 32 :=
  fun r => (V m c main_v6 : S8192x1.Idx → Elt Ideal .i32) (ix2 r (0 : Fin 1))

/-- The zero offsets, however spelt. -/
theorem hz : (![0, 0] : Fin 2 → Nat) = fun _ => 0 := funext fun a => by fin_cases a <;> rfl

/-- The block indices of the six windows at grid point t: the query block, the query labels' block and the two result
    blocks sit at block row t, column 0; the key matrix and the row of key labels are one block, at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The grid has one axis: point t has coordinate t. -/
theorem coords_fact : ∀ t : Fin cfg0.N, (grid0.coords t 0).val = t.val :=
  (by decide +kernel : ∀ t : Fin grid0.N, _)

/-- The 1 × 8192 row of key labels and the 8192 × 1 column of query labels are the same 8192 labels laid out two ways:
    entry (0, j) of the row is entry (j, 0) of the column. -/
theorem v7_v6 (c : Dev nD) (j : Fin 8192) :
    (V m c main_v7 : S1x8192.Idx → Elt Ideal .i32) (ix2 (0 : Fin 1) j) = labK m c j := by
  have e6 : (V m c main_v6 : S8192x1.Idx → Elt Ideal .i32)
      = shapeCast S8192x1 (V m c main_v5 : S8192.Idx → Elt Ideal .i32) shapeCasts_S8192_S8192x1 := by
    dsimp only [Body.V, Gen.hostOps0]; after_results; rfl
  have e7 : (V m c main_v7 : S1x8192.Idx → Elt Ideal .i32)
      = shapeCast S1x8192 (V m c main_v5 : S8192.Idx → Elt Ideal .i32) shapeCasts_S8192_S1x8192 := by
    dsimp only [Body.V, Gen.hostOps0]; after_results; rfl
  unfold labK
  rw [e6, e7]
  rw [shapeCast_apply _ shapeCasts_S8192_S1x8192 (ix2 (0 : Fin 1) j) (ix1 j) (by
      rw [Shape.rowMajor_val_two, Shape.rowMajor_val_one]; show j.val = 0 * 8192 + j.val; omega),
    shapeCast_apply _ shapeCasts_S8192_S8192x1 (ix2 j (0 : Fin 1)) (ix1 j) (by
      rw [Shape.rowMajor_val_two, Shape.rowMajor_val_one]; show j.val = j.val * 1 + 0; omega)]

/-- A grid point is below 128. -/
theorem tlt (t : Fin cfg0.N) : t.val < 128 := by
  have h : cfg0.N = 128 := N_0
  have := t.isLt
  omega

/-- The query block at point t is rows 64·t … 64·t + 63 of the features. -/
theorem iblk0_apply (c : Dev nD) (t : Fin cfg0.N) (p : Fin 64) (k : Fin 256) :
    (iblk m c 0 t : Vec Ideal S64x256 .bf16) (ix2 p k) = cfK m c (Cert.KernelRow.blockRow t.val (tlt t) p) k := by
  obtain ⟨e0, e1, -⟩ := idx_facts t
  unfold iblk cfK
  rw [View.read_apply]
  show V m c main_v2 _ = V m c main_v2 _
  congr 1
  funext a
  apply Fin.ext
  match a with
  | ⟨0, _⟩ => show win0_0.index t 0 * 64 + 1 * p.val = 64 * t.val + p.val; rw [e0]; omega
  | ⟨1, _⟩ => show win0_0.index t 1 * 256 + 1 * k.val = k.val; rw [e1]; omega

/-- The key block at every point is the whole feature array. -/
theorem iblk1_apply (c : Dev nD) (t : Fin cfg0.N) (j : Fin 8192) (k : Fin 256) :
    (iblk m c 1 t : Vec Ideal S8192x256 .bf16) (ix2 j k) = cfK m c j k := by
  obtain ⟨-, -, e0, e1, -⟩ := idx_facts t
  unfold iblk cfK
  rw [View.read_apply]
  show V m c main_v2 _ = V m c main_v2 _
  congr 1
  funext a
  apply Fin.ext
  match a with
  | ⟨0, _⟩ => show win0_1.index t 0 * 8192 + 1 * j.val = j.val; rw [e0]; omega
  | ⟨1, _⟩ => show win0_1.index t 1 * 256 + 1 * k.val = k.val; rw [e1]; omega

/-- The query labels' block at point t is labels 64·t … 64·t + 63. -/
theorem iblk2_apply (c : Dev nD) (t : Fin cfg0.N) (p : Fin 64) :
    (iblk m c 2 t : Vec Ideal S64x1 .i32) (ix2 p (0 : Fin 1)) = labK m c (Cert.KernelRow.blockRow t.val (tlt t) p) := by
  obtain ⟨-, -, -, -, e0, e1, -⟩ := idx_facts t
  unfold iblk labK
  rw [View.read_apply]
  show V m c main_v6 _ = V m c main_v6 _
  congr 1
  funext a
  apply Fin.ext
  match a with
  | ⟨0, _⟩ => show win0_2.index t 0 * 64 + 1 * p.val = 64 * t.val + p.val; rw [e0]; omega
  | ⟨1, _⟩ => show win0_2.index t 1 * 1 + 1 * 0 = 0; rw [e1]

/-- The key labels' block at every point is all 8192 labels. -/
theorem iblk3_apply (c : Dev nD) (t : Fin cfg0.N) (j : Fin 8192) :
    (iblk m c 3 t : Vec Ideal S1x8192 .i32) (ix2 (0 : Fin 1) j) = labK m c j := by
  obtain ⟨-, -, -, -, -, -, e0, e1, -⟩ := idx_facts t
  rw [← v7_v6 m c j]
  unfold iblk
  rw [View.read_apply]
  show V m c main_v7 _ = V m c main_v7 _
  congr 1
  funext a
  apply Fin.ext
  match a with
  | ⟨0, _⟩ => show win0_3.index t 0 * 1 + 1 * 0 = 0; rw [e0]
  | ⟨1, _⟩ => show win0_3.index t 1 * 8192 + 1 * j.val = j.val; rw [e1]; omega

/-- The first stored column at any of its 64 entries: the sum of log-probabilities over the positives of that row. -/
theorem possum_point (cf : Fin 8192 → Fin 256 → EReal) (lab : Fin 8192 → BitVec 32)
    (i : grid0.Coords) (t : ℕ) (ht : t < 128) (hi : (i 0).val = t)
    (x0 : Vec Ideal S64x256 .bf16) (x1 : Vec Ideal S8192x256 .bf16)
    (x2 : Vec Ideal S64x1 .i32) (x3 : Vec Ideal S1x8192 .i32)
    (h0 : ∀ (p : Fin 64) (k : Fin 256), x0 (ix2 p k) = cf (Cert.KernelRow.blockRow t ht p) k)
    (h2 : ∀ (j : Fin 8192) (k : Fin 256), x1 (ix2 j k) = cf j k)
    (h12 : ∀ p : Fin 64, x2 (ix2 p (0 : Fin 1)) = lab (Cert.KernelRow.blockRow t ht p))
    (h14 : ∀ j : Fin 8192, x3 (ix2 (0 : Fin 1) j) = lab j) (y : S64x1.Idx) :
    Gen.k0_pay1 (F := Ideal) (Gen.k0_pay3 x0 x1) (Gen.k0_pay5 i x2 x3) (Gen.k0_pay6 x0 x1 x2 x3) y
      = Cert.Spec.possum cf lab (Cert.KernelRow.blockRow t ht (y 0)) := by
  obtain ⟨p, u, rfl⟩ : ∃ (p : Fin 64) (u : Fin 1), y = ix2 p u := ⟨y 0, y 1, eq_ix2 y⟩
  obtain rfl : u = 0 := Subsingleton.elim u 0
  exact Cert.KernelRow.possum_row cf lab i t ht hi x0 x1 x2 x3 h0 h2 h12 h14 p

/-- The second stored column at any of its 64 entries: the number of positives of that row. -/
theorem poscount_point (lab : Fin 8192 → BitVec 32)
    (i : grid0.Coords) (t : ℕ) (ht : t < 128) (hi : (i 0).val = t)
    (x2 : Vec Ideal S64x1 .i32) (x3 : Vec Ideal S1x8192 .i32)
    (h12 : ∀ p : Fin 64, x2 (ix2 p (0 : Fin 1)) = lab (Cert.KernelRow.blockRow t ht p))
    (h14 : ∀ j : Fin 8192, x3 (ix2 (0 : Fin 1) j) = lab j) (y : S64x1.Idx) :
    Gen.k0_pay2 (F := Ideal) (Gen.k0_pay5 i x2 x3) y
      = Cert.Spec.poscount lab (Cert.KernelRow.blockRow t ht (y 0)) := by
  obtain ⟨p, u, rfl⟩ : ∃ (p : Fin 64) (u : Fin 1), y = ix2 p u := ⟨y 0, y 1, eq_ix2 y⟩
  obtain rfl : u = 0 := Subsingleton.elim u 0
  exact Cert.KernelRow.poscount_row lab i t ht hi x2 x3 h12 h14 p

/-- The first result array, index by index: at row r the sum of log-probabilities over the positives of row r. -/
def sumArr (c : Dev nD) : S8192x1.Idx → EReal :=
  fun i => Cert.Spec.possum (cfK m c) (labK m c) ⟨(i 0).val, idx2_lt0 i⟩
/-- The second result array, index by index: at row r the number of positives of row r. -/
def cntArr (c : Dev nD) : S8192x1.Idx → EReal :=
  fun i => Cert.Spec.poscount (labK m c) ⟨(i 0).val, idx2_lt0 i⟩

/-- What point t writes back to the first result is block t of that array: rows 64·t … 64·t + 63. -/
theorem flushed4_eq (c : Dev nD) (t : Fin cfg0.N) :
    (dats m 0 c).flushed 4 t = ((cfg0.win 4).blk t).view.read (Elt Ideal) (sumArr m c) := by
  show (cfg0.win 4).cut (grid0.coords t) ((dats m 0 c).after 4 t) = _
  rw [after0_4]
  unfold outSum
  rw [View.canon_unit_zero hz]
  simp only [View.ld_unit_zero (S := S64x256) hz, View.ld_unit_zero (S := S8192x256) hz,
    View.ld_unit_zero (S := S64x1) hz, View.ld_unit_zero (S := S1x8192) hz]
  obtain ⟨-, -, -, -, -, -, -, -, e0, e1, -⟩ := idx_facts t
  funext y
  refine (possum_point (cfK m c) (labK m c) (grid0.coords t) t.val (tlt t) (coords_fact t) _ _ _ _
    (iblk0_apply m c t) (iblk1_apply m c t) (iblk2_apply m c t) (iblk3_apply m c t) y).trans ?_
  show Cert.Spec.possum _ _ _ = Cert.Spec.possum _ _ _
  congr 1
  apply Fin.ext
  show 64 * t.val + (y 0).val = win0_4.index t 0 * 64 + 1 * (y 0).val
  rw [e0]; omega

/-- What point t writes back to the second result is block t of that array. -/
theorem flushed5_eq (c : Dev nD) (t : Fin cfg0.N) :
    (dats m 0 c).flushed 5 t = ((cfg0.win 5).blk t).view.read (Elt Ideal) (cntArr m c) := by
  show (cfg0.win 5).cut (grid0.coords t) ((dats m 0 c).after 5 t) = _
  rw [after0_5]
  unfold outCnt
  rw [View.canon_unit_zero hz]
  simp only [View.ld_unit_zero (S := S64x1) hz, View.ld_unit_zero (S := S1x8192) hz]
  obtain ⟨-, -, -, -, -, -, -, -, -, -, e0, e1⟩ := idx_facts t
  funext y
  refine (poscount_point (labK m c) (grid0.coords t) t.val (tlt t) (coords_fact t) _ _
    (iblk2_apply m c t) (iblk3_apply m c t) y).trans ?_
  show Cert.Spec.poscount _ _ = Cert.Spec.poscount _ _
  congr 1
  apply Fin.ext
  show 64 * t.val + (y 0).val = win0_5.index t 0 * 64 + 1 * (y 0).val
  rw [e0]; omega

/-- An index of the first result is in point t's block iff each coordinate is in the block's range on its axis. -/
theorem mem_blk4 (t : Fin cfg0.N) (i : S8192x1.Idx) :
    i ∈ ((cfg0.win 4).blk t).view.set ↔ ∀ a : Fin 2, win0_4.index t a * S64x1.size a ≤ (i a).val
      ∧ (i a).val < win0_4.index t a * S64x1.size a + S64x1.size a := by
  show i ∈ ((View.whole main_v8_0).slice (win0_4.rect t)).set ↔ _
  rw [View.set_slice_whole, Rect.mem_set_unit]
  exact Iff.rfl

/-- The same for the second result. -/
theorem mem_blk5 (t : Fin cfg0.N) (i : S8192x1.Idx) :
    i ∈ ((cfg0.win 5).blk t).view.set ↔ ∀ a : Fin 2, win0_5.index t a * S64x1.size a ≤ (i a).val
      ∧ (i a).val < win0_5.index t a * S64x1.size a + S64x1.size a := by
  show i ∈ ((View.whole main_v8_1).slice (win0_5.rect t)).set ↔ _
  rw [View.set_slice_whole, Rect.mem_set_unit]
  exact Iff.rfl

/-- The 128 blocks of 64 rows tile the 8192 rows: row r is in the block of point r / 64. -/
theorem cover4 (i : S8192x1.Idx) :
    ∃ t : Fin cfg0.N, (cfg0.win 4).flush t = true ∧ i ∈ ((cfg0.win 4).blk t).view.set := by
  have hN : cfg0.N = 128 := N_0
  have hi0 : (i 0).val < 8192 := idx2_lt0 i
  have hi1 : (i 1).val < 1 := idx2_lt1 i
  have ht : (i 0).val / 64 < cfg0.N := by omega
  obtain ⟨-, -, -, -, -, -, -, -, e0, e1, -⟩ := idx_facts ⟨(i 0).val / 64, ht⟩
  refine ⟨⟨(i 0).val / 64, ht⟩, flush0_4 _, ?_⟩
  rw [mem_blk4]
  intro a
  match a with
  | ⟨0, _⟩ =>
    show win0_4.index ⟨(i 0).val / 64, ht⟩ 0 * 64 ≤ (i 0).val ∧ (i 0).val < win0_4.index ⟨(i 0).val / 64, ht⟩ 0 * 64 + 64
    rw [e0]; show (i 0).val / 64 * 64 ≤ (i 0).val ∧ (i 0).val < (i 0).val / 64 * 64 + 64; omega
  | ⟨1, _⟩ =>
    show win0_4.index ⟨(i 0).val / 64, ht⟩ 1 * 1 ≤ (i 1).val ∧ (i 1).val < win0_4.index ⟨(i 0).val / 64, ht⟩ 1 * 1 + 1
    rw [e1]; omega

/-- The same for the second result. -/
theorem cover5 (i : S8192x1.Idx) :
    ∃ t : Fin cfg0.N, (cfg0.win 5).flush t = true ∧ i ∈ ((cfg0.win 5).blk t).view.set := by
  have hN : cfg0.N = 128 := N_0
  have hi0 : (i 0).val < 8192 := idx2_lt0 i
  have hi1 : (i 1).val < 1 := idx2_lt1 i
  have ht : (i 0).val / 64 < cfg0.N := by omega
  obtain ⟨-, -, -, -, -, -, -, -, -, -, e0, e1⟩ := idx_facts ⟨(i 0).val / 64, ht⟩
  refine ⟨⟨(i 0).val / 64, ht⟩, flush0_5 _, ?_⟩
  rw [mem_blk5]
  intro a
  match a with
  | ⟨0, _⟩ =>
    show win0_5.index ⟨(i 0).val / 64, ht⟩ 0 * 64 ≤ (i 0).val ∧ (i 0).val < win0_5.index ⟨(i 0).val / 64, ht⟩ 0 * 64 + 64
    rw [e0]; show (i 0).val / 64 * 64 ≤ (i 0).val ∧ (i 0).val < (i 0).val / 64 * 64 + 64; omega
  | ⟨1, _⟩ =>
    show win0_5.index ⟨(i 0).val / 64, ht⟩ 1 * 1 ≤ (i 1).val ∧ (i 1).val < win0_5.index ⟨(i 0).val / 64, ht⟩ 1 * 1 + 1
    rw [e1]; omega

/-- After the last point the first result array holds, at every row, that row's sum over its positives. -/
theorem final_sum_arr (c : Dev nD) : (dats m 0 c).arrAt 4 cfg0.N = sumArr m c :=
  (dats m 0 c).arrAt_eq_of_cover 4 (sumArr m c) (fun t _ => flushed4_eq m c t) cover4

/-- After the last point the second result array holds, at every row, that row's number of positives. -/
theorem final_cnt_arr (c : Dev nD) : (dats m 0 c).arrAt 5 cfg0.N = cntArr m c :=
  (dats m 0 c).arrAt_eq_of_cover 5 (cntArr m c) (fun t _ => flushed5_eq m c t) cover5

/-- Row by row. -/
theorem final_sum (c : Dev nD) (r : Fin 8192) :
    ((dats m 0 c).arrAt 4 cfg0.N : S8192x1.Idx → EReal) (ix2 r (0 : Fin 1)) = Cert.Spec.possum (cfK m c) (labK m c) r := by
  rw [final_sum_arr]; rfl

/-- Row by row. -/
theorem final_cnt (c : Dev nD) (r : Fin 8192) :
    ((dats m 0 c).arrAt 5 cfg0.N : S8192x1.Idx → EReal) (ix2 r (0 : Fin 1)) = Cert.Spec.poscount (labK m c) r := by
  rw [final_cnt_arr]; rfl

end Cert.KernelFinal

end
-- ==== Proof.IdealValue.lean ====
/-
  The idealized kernel's result as a function of the arrays the region finds.

  The host lines after the region flatten the two result columns, divide the first by the second row by row, scale,
  sum and divide by the row count: one function of the two columns (the same the reference ends with). The columns
  after the region are the specification's row functions of the features and labels the region found. So the result is
  that function of the specification's two row functions.
-/
import proofs.«174806_j49632642073101_1_alg».proof.Proof.IdealRun
import proofs.«174806_j49632642073101_1_alg».proof.Proof.KernelTail
import proofs.«174806_j49632642073101_1_alg».proof.Proof.KernelFinal
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The result buffer after the last host line is the tail function of the two result arrays after the region. -/
theorem result_tail (c : Dev nD) :
    W2 (F := Ideal) m c (Proc.devRef .tc main_v15) = Cert.KernelTail.kernelTail (finalA m c 4) (finalA m c 5) := by
  show StableHlo.after hostOps1 (W1 m c) (Proc.devRef .tc main_v15) = _
  after_results
  rw [W1_sum, W1_cnt]
  rfl

/-- The result, at its one index, from the features and labels the region found. -/
theorem result_eq (c : Dev nD) (i : S_.Idx) :
    (W2 (F := Ideal) m c (Proc.devRef .tc main_v15) : S_.Idx → EReal) i
      = Cert.RefValue.tail (Cert.Spec.possum (Cert.KernelFinal.cfK m c) (Cert.KernelFinal.labK m c))
          (Cert.Spec.poscount (Cert.KernelFinal.labK m c)) := by
  rw [result_tail]
  refine (Cert.KernelTail.kernelTail_eq (finalA m c 4) (finalA m c 5) i).trans ?_
  congr 1
  · funext r; exact Cert.KernelFinal.final_sum m c r
  · funext r; exact Cert.KernelFinal.final_cnt m c r

end Cert.KernelIdeal.Body

end
-- ==== Proof.KernelArgs.lean ====
/-
  The arrays the kernel's grid reads, as functions of the program's two arguments.

  Before the grid runs, the features f32[64, 128, 256] are transposed to [128, 64, 256], flattened to [8192, 256]
  and converted to bf16 — a change of format only, the identity on extended reals — and the 64 labels are viewed as a
  1 × 64 row, repeated down 128 rows and flattened to 8192 entries, then viewed as a column and as a row.  These are,
  operation for operation, the reference's first stages: its flattened features and its tiled labels.
-/
import proofs.«174806_j49632642073101_1_alg».proof.Proof.KernelFinal
import proofs.«174806_j49632642073101_1_alg».proof.Proof.Gen.ReferenceIdeal.Read

noncomputable section

namespace Cert.KernelArgs

open Cert.KernelIdeal Cert.KernelIdeal.Gen Cert.KernelIdeal.Body Cert.KernelFinal
open Idealize.ShloMosaic Idealize.ShloMosaic.TcCoe Idealize.ShloMosaic.ValueIdx Idealize.SL.Sem

variable (m : (ℓ : Loc nD τ sig) → Buf (Elt Ideal) ℓ)

/-- The flattened features the grid reads are the reference's flattened features of the same argument: transposed,
    flattened, and (on extended reals) unchanged by the conversion to the narrower format. -/
theorem v2_eq (c : Dev nD) :
    (V m c main_v2 : S8192x256.Idx → Elt Ideal .bf16)
      = Cert.ReferenceIdeal.Read.val_main_v1 (F := Ideal) (m ((c : Thread nD τ).loc main_arg0)) := by
  dsimp only [Body.V, Gen.hostOps0]; after_results; rfl

/-- The 8192 tiled labels are the reference's tiled labels of the same argument. -/
theorem v5_eq (c : Dev nD) :
    (V m c main_v5 : S8192.Idx → Elt Ideal .i32)
      = Cert.ReferenceIdeal.Read.val_main_v4 (F := Ideal) (m ((c : Thread nD τ).loc main_arg1)) := by
  dsimp only [Body.V, Gen.hostOps0]; after_results; rfl

/-- The column of query labels is the 8192 tiled labels viewed as 8192 × 1. -/
theorem v6_eq (c : Dev nD) :
    (V m c main_v6 : S8192x1.Idx → Elt Ideal .i32)
      = shapeCast S8192x1 (V m c main_v5 : S8192.Idx → Elt Ideal .i32) shapeCasts_S8192_S8192x1 := by
  dsimp only [Body.V, Gen.hostOps0]; after_results; rfl

/-- Entry (r, k) of the features the grid reads is entry (r, k) of the reference's flattened features. -/
theorem cfK_eq (c : Dev nD) (r : Fin 8192) (k : Fin 256) :
    cfK m c r k = Cert.ReferenceIdeal.Read.val_main_v1 (F := Ideal) (m ((c : Thread nD τ).loc main_arg0)) (ix2 r k) := by
  unfold cfK
  rw [v2_eq]

/-- Label r as the grid reads it is entry r of the reference's tiled labels. -/
theorem labK_eq (c : Dev nD) (r : Fin 8192) :
    labK m c r = Cert.ReferenceIdeal.Read.val_main_v4 (F := Ideal) (m ((c : Thread nD τ).loc main_arg1)) (ix1 r) := by
  unfold labK
  rw [v6_eq, shapeCast_apply _ shapeCasts_S8192_S8192x1 (ix2 r (0 : Fin 1)) (ix1 r) (by
      rw [Shape.rowMajor_val_two, Shape.rowMajor_val_one]; show r.val = r.val * 1 + 0; omega), v5_eq]

/-- As functions. -/
theorem cfK_fun (c : Dev nD) :
    cfK m c = fun r k => Cert.ReferenceIdeal.Read.val_main_v1 (F := Ideal) (m ((c : Thread nD τ).loc main_arg0)) (ix2 r k) :=
  funext fun r => funext fun k => cfK_eq m c r k

/-- As functions. -/
theorem labK_fun (c : Dev nD) :
    labK m c = fun r => Cert.ReferenceIdeal.Read.val_main_v4 (F := Ideal) (m ((c : Thread nD τ).loc main_arg1)) (ix1 r) :=
  funext fun r => labK_eq m c r

end Cert.KernelArgs

end
-- ==== Proof.lean ====
/-
  The certificate of a supervised-contrastive loss over 8192 feature rows of width 256, as one Pallas kernel
  against its jnp reference.

  For every row r, with s[r,j] = ⟨cf r, cf j⟩ · c the scaled similarities, both programs compute the row maximum,
  the shifted similarities, their exponentials, the sum of the exponentials over the rows of another label, the
  log-probability of every pair, and, over the rows j ≠ r of the same label, the sum of the log-probabilities and the
  number of such rows; the loss is the mean over r of w·(that sum / that number), w the f32 word 0xBFB6DB6E (about
  −10/7) both programs carry. The kernel does this for 64 rows per grid point against all 8192 keys held in VMEM; the
  reference over the whole 8192 × 8192 matrix. The one arithmetic difference: the reference DIVIDES the inner
  products by its f32 temperature word 13421773/134217728, the kernel MULTIPLIES by the folded reciprocal, printed
  10.0; read as the exact reciprocal 134217728/13421773 of the reference's word — the named constant of the
  idealization, which rounds to the printed word — the two scalings are one function on the extended reals.

  The frames: the kernel's @main, at the word level and idealized, runs as host lines, the region, host lines
  (Proof/BitsRun.lean, Proof/IdealRun.lean: the features' array is read through two windows, so it is held at two
  half shares inside the region); the reference's by its generated run. The value: the kernel's two result columns
  are the specification's row functions (Proof/KernelRow.lean at a point, Proof/KernelFinal.lean over the array),
  the reference's two sums likewise (Proof/RefValue.lean), the entry arrays of both are the same functions of the
  arguments, and the last host lines of both are one function of the two columns.
-/
import proofs.«174806_j49632642073101_1_alg».proof.Defs
import proofs.«174806_j49632642073101_1_alg».proof.Proof.Gen.Kernel
import proofs.«174806_j49632642073101_1_alg».proof.Proof.Gen.KernelIdeal
import proofs.«174806_j49632642073101_1_alg».proof.Proof.Gen.ReferenceIdeal
import proofs.«174806_j49632642073101_1_alg».proof.Proof.Gen.Pre_finite_inputs
import proofs.«174806_j49632642073101_1_alg».proof.Proof.Gen.ReferenceIdeal.Read
import proofs.«174806_j49632642073101_1_alg».proof.Proof.BitsRun
import proofs.«174806_j49632642073101_1_alg».proof.Proof.IdealRun
import proofs.«174806_j49632642073101_1_alg».proof.Proof.IdealValue
import proofs.«174806_j49632642073101_1_alg».proof.Proof.KernelArgs
import proofs.«174806_j49632642073101_1_alg».proof.Proof.RefTail
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Body.frame (F := Bits) m ρ
theorem frame_ki : Cert.frame_KernelIdeal := fun m ρ _ => Cert.KernelIdeal.Body.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table gives the folded reciprocal's name the exact reciprocal of the reference's
    temperature word, and the printed constant is that value at the extended reals. -/
theorem preserves : Cert.preserves_Kernel_KernelIdeal :=
  IdealRules.named_const.statement Cert.KernelIdeal.κ "fold_c_134217728_13421773" .f32 0x41200000#32 ((134217728 / 13421773 : ℝ) : EReal) rfl

/-- At the extended reals the idealized kernel's result is the tail function of the specification's two row functions
    of the features and labels its region found, the reference's the same of its own flattened features and tiled
    labels; from arguments that agree those are the same arrays, so the results are equal. -/
theorem algebraic : Cert.algebraic_KernelIdeal_ReferenceIdeal := by
  intro m ρ m' ρ' _ hagree
  refine ⟨fun c => Cert.KernelIdeal.Body.W2 (F := Ideal) m c (Proc.devRef .tc Cert.KernelIdeal.main_v15), ?_, ?_⟩
  · exact (θ_run Cert.KernelIdeal.defs _ _).mono (fun r h c =>
      ⟨h c (Proc.devRef .tc Cert.KernelIdeal.main_v15) (by decide),
       (h c (Proc.devRef .tc Cert.KernelIdeal.main_arg0) (by decide)).trans
         (Cert.KernelIdeal.Body.W2_arg m c Cert.KernelIdeal.main_arg0 (.inl rfl)),
       (h c (Proc.devRef .tc Cert.KernelIdeal.main_arg1) (by decide)).trans
         (Cert.KernelIdeal.Body.W2_arg m c Cert.KernelIdeal.main_arg1 (.inr rfl))⟩)
      (Cert.KernelIdeal.Body.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, (hagree c).1, (hagree c).2]
    funext i
    rw [Cert.RefValue.v47_eq]
    refine Eq.trans ?_ (Cert.KernelIdeal.Body.result_eq m c i).symm
    rw [Cert.KernelArgs.cfK_fun, Cert.KernelArgs.labK_fun]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
